-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S4x2048x768 .f32) (main_arg1 : FVec F S2304x768 .f32) (main_arg2 : FVec F S768x768 .f32) (main_arg3 : FVec F S768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S4x2048x768 : Shape := ⟨3, ![4, 2048, 768]⟩
abbrev S2304x768 : Shape := ⟨2, ![2304, 768]⟩
abbrev S768x768 : Shape := ⟨2, ![768, 768]⟩
abbrev S768 : Shape := ⟨1, ![768]⟩
abbrev S8192x768 : Shape := ⟨2, ![8192, 768]⟩
abbrev S768x2304 : Shape := ⟨2, ![768, 2304]⟩
abbrev S8192x2304 : Shape := ⟨2, ![8192, 2304]⟩
abbrev S512x768 : Shape := ⟨2, ![512, 768]⟩
abbrev S512x2304 : Shape := ⟨2, ![512, 2304]⟩
abbrev S4x2048x3x12x64 : Shape := ⟨5, ![4, 2048, 3, 12, 64]⟩
abbrev S3x4x12x2048x64 : Shape := ⟨5, ![3, 4, 12, 2048, 64]⟩
abbrev S1x4x12x2048x64 : Shape := ⟨5, ![1, 4, 12, 2048, 64]⟩
abbrev S4x12x2048x64 : Shape := ⟨4, ![4, 12, 2048, 64]⟩
abbrev S1x1x512x64 : Shape := ⟨4, ![1, 1, 512, 64]⟩
abbrev S1x1x2048x64 : Shape := ⟨4, ![1, 1, 2048, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S4x2048x12x64 : Shape := ⟨4, ![4, 2048, 12, 64]⟩
abbrev S1x768 : Shape := ⟨2, ![1, 768]⟩

abbrev nBuf : Space → Nat
  | .hbm => 23
  | .vmem => 19
  | .smem => 0
  | _ => 0

abbrev bufTy : (tb : Table) → Fin (tcTables nBuf tb) → BufTy
  | .hbm, ⟨0, _⟩ => ⟨S4x2048x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S8192x768, .f32⟩
  | .hbm, ⟨5, _⟩ => ⟨S768x2304, .f32⟩
  | .hbm, ⟨6, _⟩ => ⟨S768x2304, .bf16⟩
  | .hbm, ⟨7, _⟩ => ⟨S8192x2304, .f32⟩
  | .hbm, ⟨8, _⟩ => ⟨S4x2048x3x12x64, .f32⟩
  | .hbm, ⟨9, _⟩ => ⟨S3x4x12x2048x64, .f32⟩
  | .hbm, ⟨10, _⟩ => ⟨S1x4x12x2048x64, .f32⟩
  | .hbm, ⟨11, _⟩ => ⟨S4x12x2048x64, .f32⟩
  | .hbm, ⟨12, _⟩ => ⟨S1x4x12x2048x64, .f32⟩
  | .hbm, ⟨13, _⟩ => ⟨S4x12x2048x64, .f32⟩
  | .hbm, ⟨14, _⟩ => ⟨S1x4x12x2048x64, .f32⟩
  | .hbm, ⟨15, _⟩ => ⟨S4x12x2048x64, .f32⟩
  | .hbm, ⟨16, _⟩ => ⟨S4x12x2048x64, .f32⟩
  | .hbm, ⟨17, _⟩ => ⟨S4x2048x12x64, .f32⟩
  | .hbm, ⟨18, _⟩ => ⟨S8192x768, .f32⟩
  | .hbm, ⟨19, _⟩ => ⟨S768x768, .f32⟩
  | .hbm, ⟨20, _⟩ => ⟨S768x768, .bf16⟩
  | .hbm, ⟨21, _⟩ => ⟨S8192x768, .f32⟩
  | .hbm, ⟨22, _⟩ => ⟨S4x2048x768, .f32⟩
  | .local _ .vmem, ⟨0, _⟩ => ⟨S512x768, .f32⟩
  | .local _ .vmem, ⟨1, _⟩ => ⟨S512x768, .f32⟩
  | .local _ .vmem, ⟨2, _⟩ => ⟨S768x2304, .bf16⟩
  | .local _ .vmem, ⟨3, _⟩ => ⟨S512x2304, .f32⟩
  | .local _ .vmem, ⟨4, _⟩ => ⟨S512x2304, .f32⟩
  | .local _ .vmem, ⟨5, _⟩ => ⟨S1x1x512x64, .f32⟩
  | .local _ .vmem, ⟨6, _⟩ => ⟨S1x1x512x64, .f32⟩
  | .local _ .vmem, ⟨7, _⟩ => ⟨S1x1x2048x64, .f32⟩
  | .local _ .vmem, ⟨8, _⟩ => ⟨S1x1x2048x64, .f32⟩
  | .local _ .vmem, ⟨9, _⟩ => ⟨S1x1x2048x64, .f32⟩
  | .local _ .vmem, ⟨10, _⟩ => ⟨S1x1x2048x64, .f32⟩
  | .local _ .vmem, ⟨11, _⟩ => ⟨S1x1x512x64, .f32⟩
  | .local _ .vmem, ⟨12, _⟩ => ⟨S1x1x512x64, .f32⟩
  | .local _ .vmem, ⟨13, _⟩ => ⟨S512x768, .f32⟩
  | .local _ .vmem, ⟨14, _⟩ => ⟨S512x768, .f32⟩
  | .local _ .vmem, ⟨15, _⟩ => ⟨S768x768, .bf16⟩
  | .local _ .vmem, ⟨16, _⟩ => ⟨S768, .f32⟩
  | .local _ .vmem, ⟨17, _⟩ => ⟨S512x768, .f32⟩
  | .local _ .vmem, ⟨18, _⟩ => ⟨S512x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 12, 4], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x768_S8192x768 : S4x2048x768.ShapeCasts S8192x768
  transposes_S2304x768_S768x2304_1_0 : S2304x768.Transposes [1, 0] S768x2304
  bitsLt_bf16_f32 : FTy.bits .bf16 < FTy.bits .f32
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S512x2304_S512x2304_0_0 : ∀ a, (![0, 0] : Fin 2 → Nat) a + S512x2304.size a ≤ S512x2304.size a
  h_S512x2304 : 0 < S512x2304.numel
  shapeCasts_S8192x2304_S4x2048x3x12x64 : S8192x2304.ShapeCasts S4x2048x3x12x64
  transposes_S4x2048x3x12x64_S3x4x12x2048x64_2_0_3_1_4 : S4x2048x3x12x64.Transposes [2, 0, 3, 1, 4] S3x4x12x2048x64
  slices_S3x4x12x2048x64_S1x4x12x2048x64_0_0_0_0_0 : S3x4x12x2048x64.Slices ![0, 0, 0, 0, 0] S1x4x12x2048x64
  shapeCasts_S1x4x12x2048x64_S4x12x2048x64 : S1x4x12x2048x64.ShapeCasts S4x12x2048x64
  slices_S3x4x12x2048x64_S1x4x12x2048x64_1_0_0_0_0 : S3x4x12x2048x64.Slices ![1, 0, 0, 0, 0] S1x4x12x2048x64
  slices_S3x4x12x2048x64_S1x4x12x2048x64_2_0_0_0_0 : S3x4x12x2048x64.Slices ![2, 0, 0, 0, 0] S1x4x12x2048x64
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  reduces_S512x2048_S512 : S512x2048.Reduces [1] S512
  shapeCasts_S512_S512x1 : S512.ShapeCasts S512x1
  broadcasts_S512x1_S512x2048 : S512x1.Broadcasts S512x2048
  shapeCasts_S512x64_S1x1x512x64 : S512x64.ShapeCasts S1x1x512x64
  transposes_S4x12x2048x64_S4x2048x12x64_0_2_1_3 : S4x12x2048x64.Transposes [0, 2, 1, 3] S4x2048x12x64
  shapeCasts_S4x2048x12x64_S8192x768 : S4x2048x12x64.ShapeCasts S8192x768
  transposes_S768x768_S768x768_1_0 : S768x768.Transposes [1, 0] S768x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768_S768_0 : ∀ a, (![0] : Fin 1 → Nat) a + S768.size a ≤ S768.size a
  h_S768 : 0 < S768.numel
  shapeCasts_S768_S1x768 : S768.ShapeCasts S1x768
  shapeCasts_S1x768_S1x768 : S1x768.ShapeCasts S1x768
  broadcasts_S1x768_S512x768 : S1x768.Broadcasts S512x768
  shapeCasts_S8192x768_S4x2048x768 : S8192x768.ShapeCasts S4x2048x768
  dot_S512x768_S768x2304_S512x2304_1_0_0_1_n_n_wf : DotDims.WF S512x768 S768x2304 S512x2304 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x768_S768x768_S512x768_1_0_0_1_n_n_wf : DotDims.WF S512x768 S768x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S8192x768.size a
  hwx0_0 : ∀ i : grid0.Coords, EltTy.bits .f32 = 32 ∨ (Rect.block (s := S8192x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2304.size a ≤ S8192x2304.size a
  hwx0_2 : ∀ i : grid0.Coords, EltTy.bits .f32 = 32 ∨ (Rect.block (s := S8192x2304) S512x2304.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x64.size a ≤ S4x12x2048x64.size a
  hwx1_0 : ∀ i : grid1.Coords, EltTy.bits .f32 = 32 ∨ (Rect.block (s := S4x12x2048x64) S1x1x512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S4x12x2048x64.size a
  hwx1_1 : ∀ i : grid1.Coords, EltTy.bits .f32 = 32 ∨ (Rect.block (s := S4x12x2048x64) S1x1x2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S4x12x2048x64.size a
  hwx1_2 : ∀ i : grid1.Coords, EltTy.bits .f32 = 32 ∨ (Rect.block (s := S4x12x2048x64) S1x1x2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512x64.size a ≤ S4x12x2048x64.size a
  hwx1_3 : ∀ i : grid1.Coords, EltTy.bits .f32 = 32 ∨ (Rect.block (s := S4x12x2048x64) S1x1x512x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x768.size a ≤ S8192x768.size a
  hwx2_0 : ∀ i : grid2.Coords, EltTy.bits .f32 = 32 ∨ (Rect.block (s := S8192x768) S512x768.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .bf16 = 32 ∨ (Rect.block (s := S768x768) S768x768.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S768.size a ≤ S768.size a
  hwx2_2 : ∀ i : grid2.Coords, EltTy.bits .f32 = 32 ∨ (Rect.block (s := S768) S768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x768.size a ≤ S8192x768.size a
  hwx2_3 : ∀ i : grid2.Coords, EltTy.bits .f32 = 32 ∨ (Rect.block (s := S8192x768) S512x768.size (cc2_transform_3 i) (hinb2_3 i)).WholeWords (EltTy.packing .f32)

variable [Facts₀]

def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x2304.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S1x1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S512x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S512x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x768 : Shape := ⟨3, ![4, 2048, 768]⟩
abbrev S2304x768 : Shape := ⟨2, ![2304, 768]⟩
abbrev S768x768 : Shape := ⟨2, ![768, 768]⟩
abbrev S768 : Shape := ⟨1, ![768]⟩
abbrev S4x2048x2304 : Shape := ⟨3, ![4, 2048, 2304]⟩
abbrev S4x2048x3x12x64 : Shape := ⟨5, ![4, 2048, 3, 12, 64]⟩
abbrev S3x4x12x2048x64 : Shape := ⟨5, ![3, 4, 12, 2048, 64]⟩
abbrev S1x4x12x2048x64 : Shape := ⟨5, ![1, 4, 12, 2048, 64]⟩
abbrev S4x12x2048x64 : Shape := ⟨4, ![4, 12, 2048, 64]⟩
abbrev S4x12x2048x2048 : Shape := ⟨4, ![4, 12, 2048, 2048]⟩
abbrev S_ : Shape := ⟨0, ![]⟩
abbrev S4x12x2048 : Shape := ⟨3, ![4, 12, 2048]⟩
abbrev S4x12x2048x1 : Shape := ⟨4, ![4, 12, 2048, 1]⟩
abbrev S4x2048x12x64 : Shape := ⟨4, ![4, 2048, 12, 64]⟩
abbrev S1x1x768 : Shape := ⟨3, ![1, 1, 768]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S4x2048x2304, .f32⟩
  | .hbm, ⟨5, _⟩ => ⟨S4x2048x3x12x64, .f32⟩
  | .hbm, ⟨6, _⟩ => ⟨S3x4x12x2048x64, .f32⟩
  | .hbm, ⟨7, _⟩ => ⟨S1x4x12x2048x64, .f32⟩
  | .hbm, ⟨8, _⟩ => ⟨S4x12x2048x64, .f32⟩
  | .hbm, ⟨9, _⟩ => ⟨S1x4x12x2048x64, .f32⟩
  | .hbm, ⟨10, _⟩ => ⟨S4x12x2048x64, .f32⟩
  | .hbm, ⟨11, _⟩ => ⟨S1x4x12x2048x64, .f32⟩
  | .hbm, ⟨12, _⟩ => ⟨S4x12x2048x64, .f32⟩
  | .hbm, ⟨13, _⟩ => ⟨S4x12x2048x2048, .f32⟩
  | .hbm, ⟨14, _⟩ => ⟨S_, .f32⟩
  | .hbm, ⟨15, _⟩ => ⟨S4x12x2048x2048, .f32⟩
  | .hbm, ⟨16, _⟩ => ⟨S4x12x2048x2048, .f32⟩
  | .hbm, ⟨17, _⟩ => ⟨S_, .f32⟩
  | .hbm, ⟨18, _⟩ => ⟨S4x12x2048, .f32⟩
  | .hbm, ⟨19, _⟩ => ⟨S_, .f32⟩
  | .hbm, ⟨20, _⟩ => ⟨S4x12x2048, .f32⟩
  | .hbm, ⟨21, _⟩ => ⟨S4x12x2048, .f32⟩
  | .hbm, ⟨22, _⟩ => ⟨S4x12x2048x1, .f32⟩
  | .hbm, ⟨23, _⟩ => ⟨S4x12x2048x2048, .f32⟩
  | .hbm, ⟨24, _⟩ => ⟨S4x12x2048x2048, .f32⟩
  | .hbm, ⟨25, _⟩ => ⟨S4x12x2048x2048, .f32⟩
  | .hbm, ⟨26, _⟩ => ⟨S_, .f32⟩
  | .hbm, ⟨27, _⟩ => ⟨S4x12x2048, .f32⟩
  | .hbm, ⟨28, _⟩ => ⟨S4x12x2048x1, .f32⟩
  | .hbm, ⟨29, _⟩ => ⟨S4x12x2048x2048, .f32⟩
  | .hbm, ⟨30, _⟩ => ⟨S4x12x2048x2048, .f32⟩
  | .hbm, ⟨31, _⟩ => ⟨S_, .f32⟩
  | .hbm, ⟨32, _⟩ => ⟨S4x12x2048, .f32⟩
  | .hbm, ⟨33, _⟩ => ⟨S_, .f32⟩
  | .hbm, ⟨34, _⟩ => ⟨S4x12x2048, .f32⟩
  | .hbm, ⟨35, _⟩ => ⟨S4x12x2048, .f32⟩
  | .hbm, ⟨36, _⟩ => ⟨S4x12x2048x1, .f32⟩
  | .hbm, ⟨37, _⟩ => ⟨S4x12x2048x2048, .f32⟩
  | .hbm, ⟨38, _⟩ => ⟨S4x12x2048x2048, .f32⟩
  | .hbm, ⟨39, _⟩ => ⟨S4x12x2048x2048, .f32⟩
  | .hbm, ⟨40, _⟩ => ⟨S_, .f32⟩
  | .hbm, ⟨41, _⟩ => ⟨S4x12x2048, .f32⟩
  | .hbm, ⟨42, _⟩ => ⟨S4x12x2048x1, .f32⟩
  | .hbm, ⟨43, _⟩ => ⟨S4x12x2048x2048, .f32⟩
  | .hbm, ⟨44, _⟩ => ⟨S4x12x2048x2048, .f32⟩
  | .hbm, ⟨45, _⟩ => ⟨S4x12x2048x64, .f32⟩
  | .hbm, ⟨46, _⟩ => ⟨S4x2048x12x64, .f32⟩
  | .hbm, ⟨47, _⟩ => ⟨S4x2048x768, .f32⟩
  | .hbm, ⟨48, _⟩ => ⟨S4x2048x768, .f32⟩
  | .hbm, ⟨49, _⟩ => ⟨S1x1x768, .f32⟩
  | .hbm, ⟨50, _⟩ => ⟨S4x2048x768, .f32⟩
  | .hbm, ⟨51, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]

class Facts₀ : Prop where
  shapeCasts_S4x2048x2304_S4x2048x3x12x64 : S4x2048x2304.ShapeCasts S4x2048x3x12x64
  transposes_S4x2048x3x12x64_S3x4x12x2048x64_2_0_3_1_4 : S4x2048x3x12x64.Transposes [2, 0, 3, 1, 4] S3x4x12x2048x64
  slices_S3x4x12x2048x64_S1x4x12x2048x64_0_0_0_0_0 : S3x4x12x2048x64.Slices ![0, 0, 0, 0, 0] S1x4x12x2048x64
  shapeCasts_S1x4x12x2048x64_S4x12x2048x64 : S1x4x12x2048x64.ShapeCasts S4x12x2048x64
  slices_S3x4x12x2048x64_S1x4x12x2048x64_1_0_0_0_0 : S3x4x12x2048x64.Slices ![1, 0, 0, 0, 0] S1x4x12x2048x64
  slices_S3x4x12x2048x64_S1x4x12x2048x64_2_0_0_0_0 : S3x4x12x2048x64.Slices ![2, 0, 0, 0, 0] S1x4x12x2048x64
  bcast_S_S4x12x2048x2048 : S_.BroadcastsInDim S4x12x2048x2048 (![] : Fin 0 → Fin S4x12x2048x2048.rank)
  reducesTo_S4x12x2048x2048_S4x12x2048_d3 : S4x12x2048x2048.ReducesTo [3] S4x12x2048
  h_S_ : 0 < S_.numel
  bcast_S_S4x12x2048 : S_.BroadcastsInDim S4x12x2048 (![] : Fin 0 → Fin S4x12x2048.rank)
  bcast_S4x12x2048_S4x12x2048x1_0_1_2 : S4x12x2048.BroadcastsInDim S4x12x2048x1 (![0, 1, 2] : Fin 3 → Fin S4x12x2048x1.rank)
  bcast_S4x12x2048x1_S4x12x2048x2048_0_1_2_3 : S4x12x2048x1.BroadcastsInDim S4x12x2048x2048 (![0, 1, 2, 3] : Fin 4 → Fin S4x12x2048x2048.rank)
  transposes_S4x12x2048x64_S4x2048x12x64_0_2_1_3 : S4x12x2048x64.Transposes [0, 2, 1, 3] S4x2048x12x64
  shapeCasts_S4x2048x12x64_S4x2048x768 : S4x2048x12x64.ShapeCasts S4x2048x768
  bcast_S768_S1x1x768_2 : S768.BroadcastsInDim S1x1x768 (![2] : Fin 1 → Fin S1x1x768.rank)
  bcast_S1x1x768_S4x2048x768_0_1_2 : S1x1x768.BroadcastsInDim S4x2048x768 (![0, 1, 2] : Fin 3 → Fin S4x2048x768.rank)
  dot_S4x2048x768_S2304x768_S4x2048x2304_2_1_01_0_n_n_wf : DotDims.WF S4x2048x768 S2304x768 S4x2048x2304 [2] [1] [0, 1] [0] [] []
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]
  dot_S4x2048x768_S768x768_S4x2048x768_2_1_01_0_n_n_wf : DotDims.WF S4x2048x768 S768x768 S4x2048x768 [2] [1] [0, 1] [0] [] []

variable [Facts₀]

def dot_S4x2048x768_S2304x768_S4x2048x2304_2_1_01_0_n_n : DotDims S4x2048x768 S2304x768 S4x2048x2304 where
  lhsContracting := [2]
  rhsContracting := [1]
  lhsNonContracting := [0, 1]
  rhsNonContracting := [0]
  lhsBatch := []
  rhsBatch := []
  wf := dot_S4x2048x768_S2304x768_S4x2048x2304_2_1_01_0_n_n_wf
def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf
def dot_S4x2048x768_S768x768_S4x2048x768_2_1_01_0_n_n : DotDims S4x2048x768 S768x768 S4x2048x768 where
  lhsContracting := [2]
  rhsContracting := [1]
  lhsNonContracting := [0, 1]
  rhsNonContracting := [0]
  lhsBatch := []
  rhsBatch := []
  wf := dot_S4x2048x768_S768x768_S4x2048x768_2_1_01_0_n_n_wf

class Facts : Prop extends Facts₀ where

variable [Facts]
-- ==== Proof.KerRun.lean ====
/-
  The idealized kernel's run with its memory read at the end. The program is seven segments: host operations, the first
  projection's region, host operations, the attention region, host operations, the second projection's region, one
  last reshape. Every weakly fair execution terminates, and on every core every buffer outside the kernels' scratch
  ends at the contents the segments compose to (`Gen.W7`: each host stretch applied to the contents before it, each
  region's arrays at what its grid points wrote back). The arguments and the result are such buffers.
-/
import proofs.«103066_j70763881169162_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and at the end every buffer that is not a
    kernel's scratch holds, on every core, the contents the segments compose to. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.ValueRun

end
-- ==== Proof.Spec.lean ====
/-
  The mathematics both programs compute, as pure functions on the extended reals.

  One attention row: for a query row `q` (64 numbers) and the keys and values of one head (2048 rows of 64 numbers),
  the scores are `s m = (∑ d, q d * K m d) * (1/8)`; a softmax of a row `s` is `exp (s m - M) / ∑ m', exp (s m' - M)`
  with `M` the row's maximum taken from `-∞`; the kernel and the reference both apply the softmax TWICE, and the
  output is `∑ m, p m * V m d`. A linear layer is `∑ c, X r c * W c o`, with or without a bias added.
-/
import Idealize.ShloMosaic.PureOps.Ideal
import Idealize.ShloMosaic.Lib.ValueIdx

noncomputable section

open scoped BigOperators

namespace Cert.Spec

open Idealize.ShloMosaic Idealize.ShloMosaic.ValueIdx

/-- `-∞`, as the f32 word both programs start a row maximum from. -/
abbrev negInf : EReal := Ideal.ofBits .f32 0xFF800000#32
/-- The score scale `64 ^ (-1/2) = 1/8`, an exact binary fraction, as its f32 word. -/
abbrev eighth : EReal := Ideal.ofBits .f32 0x3E000000#32

/-- A row's maximum, from `-∞` (and once more against `-∞`, as both programs take it). -/
def rowMax {n : Nat} (s : Fin n → EReal) : EReal :=
  max negInf ((Finset.univ : Finset (Fin n)).fold max negInf s)

/-- The softmax of one row. -/
def softmaxRow {n : Nat} (s : Fin n → EReal) : Fin n → EReal :=
  fun m => Ideal.div (Ideal.exp (s m - rowMax s)) (∑ m' : Fin n, Ideal.exp (s m' - rowMax s))

/-- The scaled scores of one query row against every key row. -/
def scores {n e : Nat} (q : Fin e → EReal) (K : Fin n → Fin e → EReal) : Fin n → EReal :=
  fun m => (∑ d : Fin e, q d * K m d) * eighth

/-- One output element of the attention: the doubly softmaxed scores against column `d` of the values. -/
def attnRow {n e : Nat} (q : Fin e → EReal) (K V : Fin n → Fin e → EReal) (d : Fin e) : EReal :=
  ∑ m : Fin n, softmaxRow (softmaxRow (scores q K)) m * V m d

/-- The attention output at batch `b`, head `h`, query row `r`, column `d`, of the three [4, 12, 2048, 64] arrays. -/
def attnAt (Q K V : (⟨4, ![4, 12, 2048, 64]⟩ : Shape).Idx → EReal) (b : Fin 4) (h : Fin 12) (r : Fin 2048) (d : Fin 64) : EReal :=
  attnRow (fun d' => Q (ix4 b h r d')) (fun m d' => K (ix4 b h m d')) (fun m d' => V (ix4 b h m d')) d

/-- The whole attention output array. -/
def attnArr (Q K V : (⟨4, ![4, 12, 2048, 64]⟩ : Shape).Idx → EReal) : (⟨4, ![4, 12, 2048, 64]⟩ : Shape).Idx → EReal :=
  fun i => attnAt Q K V ⟨(i 0).val, (i 0).isLt⟩ ⟨(i 1).val, (i 1).isLt⟩ ⟨(i 2).val, (i 2).isLt⟩ ⟨(i 3).val, (i 3).isLt⟩

/-- One element of a matrix product `X · W`. -/
def linAt {M C O : Nat} (X : (⟨2, ![M, C]⟩ : Shape).Idx → EReal) (W : (⟨2, ![C, O]⟩ : Shape).Idx → EReal) (r : Fin M) (o : Fin O) : EReal :=
  ∑ c : Fin C, X (ix2 r c) * W (ix2 c o)

/-- The matrix product as an array. -/
def linArr {M C O : Nat} (X : (⟨2, ![M, C]⟩ : Shape).Idx → EReal) (W : (⟨2, ![C, O]⟩ : Shape).Idx → EReal) :
    (⟨2, ![M, O]⟩ : Shape).Idx → EReal :=
  fun i => linAt X W ⟨(i 0).val, (i 0).isLt⟩ ⟨(i 1).val, (i 1).isLt⟩

/-- The matrix product with a bias row added. -/
def linBiasArr {M C O : Nat} (X : (⟨2, ![M, C]⟩ : Shape).Idx → EReal) (W : (⟨2, ![C, O]⟩ : Shape).Idx → EReal)
    (β : (⟨1, ![O]⟩ : Shape).Idx → EReal) : (⟨2, ![M, O]⟩ : Shape).Idx → EReal :=
  fun i => linAt X W ⟨(i 0).val, (i 0).isLt⟩ ⟨(i 1).val, (i 1).isLt⟩ + β (ix1 ⟨(i 1).val, (i 1).isLt⟩)

end Cert.Spec

end
-- ==== Proof.KerAttnPay.lean ====
/-
  The attention kernel's body at one element. The body loads a [512, 64] block of queries and the [2048, 64] keys and
  values of one head, forms the scaled scores `q · kᵀ / 8`, takes the softmax of every row twice, and multiplies by the
  values. Read at row `r` and column `d` this is `Spec.attnRow` of the query row and the head's keys and values.
-/
import proofs.«103066_j70763881169162_1_alg».proof.Proof.Gen.KernelIdeal.Skeleton
import proofs.«103066_j70763881169162_1_alg».proof.Proof.Spec
import Idealize.ShloMosaic.Lib.Pipeline.Value
import Idealize.ShloMosaic.Lib.ValueIdx
import Idealize.ShloMosaic.PureOps.Ideal.Laws

noncomputable section

open scoped BigOperators

namespace Cert.KerBridge

open Cert.KernelIdeal Cert.KernelIdeal.Facts₀ Idealize.ShloMosaic Idealize.ShloMosaic.ValueIdx Cert.Spec

/-- A matrix product with ONE contracted axis into the zero accumulator, at an output index, is the sum over that axis of
    the operands read where the dimension numbers say (`li`, `ri`: the operand indices as functions of the contracted
    coordinate). -/
theorem matmul_zero_single {sl sr so : Shape} {φ₁ φ₂ : FTy} (D : DotDims sl sr so) (n : Nat) (hr : D.contr.rank = 1)
    (hs : D.contr.size ⟨0, by omega⟩ = n) (lhs : FVec Ideal sl φ₁) (rhs : FVec Ideal sr φ₂) (j : so.Idx)
    (li : Fin n → sl.Idx) (ri : Fin n → sr.Idx)
    (hl : ∀ k : Fin n, D.lhsIdx j ((contrEquiv1 D n hr hs).symm k) = li k)
    (hr' : ∀ k : Fin n, D.rhsIdx j ((contrEquiv1 D n hr hs).symm k) = ri k) :
    FloatOps.matmul D none lhs rhs (constant so .f32 0x00000000#32) j = ∑ k : Fin n, lhs (li k) * rhs (ri k) := by
  rw [Ideal.matmul_constant_zero_apply, ← Equiv.sum_comp (contrEquiv1 D n hr hs).symm]
  exact Finset.sum_congr rfl fun k _ => by rw [hl k, hr' k]

/-- A [512] vector viewed as a [512, 1] column and broadcast along the rows to [512, 2048], read at `(r, m)`, is the
    vector at `r`. -/
theorem col_bcast (v : S512.Idx → EReal) (r : Fin 512) (m : Fin 2048) :
    broadcastTo S512x2048 (shapeCast S512x1 v shapeCasts_S512_S512x1) broadcasts_S512x1_S512x2048 (ix2 r m) = v (ix1 r) :=
  (broadcastTo_apply _ broadcasts_S512x1_S512x2048 (ix2 r m) (ix2 r (0 : Fin 1)) (fun a => match a with
    | ⟨0, _⟩ => by show r.val = if (512 : Nat) = 1 then 0 else r.val; rw [if_neg (by decide)]
    | ⟨1, _⟩ => by show 0 = if (1 : Nat) = 1 then 0 else m.val; rw [if_pos rfl])).trans
  (shapeCast_apply v shapeCasts_S512_S512x1 (ix2 r (0 : Fin 1)) (ix1 r)
    (by rw [Shape.rowMajor_val_one, Shape.rowMajor_val_two]; show r.val = r.val * 1 + 0; omega))

/-- The reduced index `r` with the lane coordinate put back. -/
theorem lift_lane (hr : S512x2048.Reduces [1] S512) (r : Fin 512) (k : Fin (S512x2048.size 1)) :
    hr.lift (ix1 r) k = ix2 r (⟨k.val, k.isLt⟩ : Fin 2048) :=
  funext fun a => Fin.ext (by match a with | ⟨0, _⟩ => rfl | ⟨1, _⟩ => rfl)

/-- The lane maximum from `-∞` is the fold of `max` over the row. -/
theorem lane_max (s : FVec Ideal S512x2048 .f32) (hφ : FKind.Formats .f32)
    (hacc : (0xFF800000#32 : BitVec FTy.f32.bits) = FKind.maximumf.neutral .f32 hφ) (r : Fin 512) :
    multiReduction .maximumf [1] S512 s 0xFF800000#32 reduces_S512x2048_S512 hφ hacc (ix1 r)
      = (Finset.univ : Finset (Fin 2048)).fold max (Ideal.ofBits .f32 0xFF800000#32) (fun m => s (ix2 r m)) :=
  (Ideal.multiReduction_maximumf_single s 0xFF800000#32 reduces_S512x2048_S512 hφ hacc (ix1 r)).trans
    (congrArg (fun f => Finset.fold max (Ideal.ofBits .f32 0xFF800000#32) f (Finset.univ : Finset (Fin 2048)))
      (funext fun k => congrArg s (lift_lane _ r k)))

/-- The lane sum is the row's sum. -/
theorem lane_sum (e : FVec Ideal S512x2048 .f32) (hφ : FKind.Formats .f32)
    (hacc : (0x00000000#32 : BitVec FTy.f32.bits) = FKind.add.neutral .f32 hφ) (r : Fin 512) :
    multiReduction .add [1] S512 e 0x00000000#32 reduces_S512x2048_S512 hφ hacc (ix1 r) = ∑ m : Fin 2048, e (ix2 r m) :=
  (Ideal.multiReduction_add_single e 0x00000000#32 reduces_S512x2048_S512 hφ hacc (ix1 r)).trans
    (Finset.sum_congr rfl fun k _ => congrArg e (lift_lane _ r k))

/-- The kernel's softmax over the lanes, as the body spells it. -/
def kerSoftmax (s : FVec Ideal S512x2048 .f32) : FVec Ideal S512x2048 .f32 :=
  divf
    (exp (subf s (broadcastTo S512x2048 (shapeCast S512x1
      (maximumf (broadcast S512 (Scalar.ofBits (F := Ideal) .f32 0xFF800000#32))
        (multiReduction .maximumf [1] S512 s 0xFF800000#32 reduces_S512x2048_S512 (.inl rfl) rfl)) shapeCasts_S512_S512x1) broadcasts_S512x1_S512x2048)))
    (broadcastTo S512x2048 (shapeCast S512x1
      (multiReduction .add [1] S512
        (exp (subf s (broadcastTo S512x2048 (shapeCast S512x1
          (maximumf (broadcast S512 (Scalar.ofBits (F := Ideal) .f32 0xFF800000#32))
            (multiReduction .maximumf [1] S512 s 0xFF800000#32 reduces_S512x2048_S512 (.inl rfl) rfl)) shapeCasts_S512_S512x1) broadcasts_S512x1_S512x2048)))
        0x00000000#32 reduces_S512x2048_S512 (.inl rfl) rfl) shapeCasts_S512_S512x1) broadcasts_S512x1_S512x2048)

/-- The row maximum the softmax subtracts, at row `r`. -/
theorem ker_max_at (s : FVec Ideal S512x2048 .f32) (r : Fin 512) :
    (maximumf (broadcast S512 (Scalar.ofBits (F := Ideal) .f32 0xFF800000#32))
      (multiReduction .maximumf [1] S512 s 0xFF800000#32 reduces_S512x2048_S512 (.inl rfl) rfl)) (ix1 r)
      = rowMax (fun m => s (ix2 r m)) := by
  unfold rowMax
  refine (maximumf_apply _ _ _).trans ?_
  exact congrArg₂ max ((broadcast_apply _ _).trans (Ideal.ofBits_def _)) (lane_max s _ _ r)

/-- The kernel's softmax at `(r, m)` is the softmax of row `r` at `m`. -/
theorem kerSoftmax_apply (s : FVec Ideal S512x2048 .f32) (r : Fin 512) (m : Fin 2048) :
    kerSoftmax s (ix2 r m) = softmaxRow (fun m' => s (ix2 r m')) m := by
  unfold kerSoftmax softmaxRow
  have hexp : ∀ m' : Fin 2048,
      (exp (subf s (broadcastTo S512x2048 (shapeCast S512x1
        (maximumf (broadcast S512 (Scalar.ofBits (F := Ideal) .f32 0xFF800000#32))
          (multiReduction .maximumf [1] S512 s 0xFF800000#32 reduces_S512x2048_S512 (.inl rfl) rfl)) shapeCasts_S512_S512x1) broadcasts_S512x1_S512x2048)) : FVec Ideal S512x2048 .f32) (ix2 r m')
        = Ideal.exp (s (ix2 r m') - rowMax (fun m'' => s (ix2 r m''))) := fun m' =>
    congrArg (fun z => Ideal.exp (s (ix2 r m') - z)) ((col_bcast _ r m').trans (ker_max_at s r))
  refine (congrArg₂ Ideal.div (hexp m) ?_)
  refine (col_bcast _ r m).trans ((lane_sum _ _ _ r).trans (Finset.sum_congr rfl fun m' _ => hexp m'))

end Cert.KerBridge

end
-- ==== Proof.KerLinPay.lean ====
/-
  The two linear kernels' stored values, element by element: a [512, 768] block of rows times the whole weight matrix
  (already transposed on the host), contracting the 768 input columns; the second kernel adds the bias row to every row.
-/
import proofs.«103066_j70763881169162_1_alg».proof.Proof.KerAttnPay
import Idealize.ShloMosaic.Lib.ValueLayout

noncomputable section

open scoped BigOperators

namespace Cert.KerBridge

open Cert.KernelIdeal Cert.KernelIdeal.Facts₀ Idealize.ShloMosaic Idealize.ShloMosaic.ValueIdx Cert.Spec

/-! ## Where the products read their operands -/

theorem l0_lhs (r : Fin 512) (o : Fin 2304) (c : Fin 768) :
    dot_S512x768_S768x2304_S512x2304_1_0_0_1_n_n.lhsIdx (ix2 r o)
      ((contrEquiv1 dot_S512x768_S768x2304_S512x2304_1_0_0_1_n_n 768 rfl rfl).symm c) = ix2 r c :=
  funext fun a => Fin.ext (by
    match a with
    | ⟨0, _⟩ =>
      show (dot_S512x768_S768x2304_S512x2304_1_0_0_1_n_n.lhsIdx (ix2 r o) _ 0).val = r.val
      unfold DotDims.lhsIdx
      rw [dif_neg (show ¬(0 : Fin S512x768.rank) ∈ dot_S512x768_S768x2304_S512x2304_1_0_0_1_n_n.lhsBatch by decide),
        dif_pos (show (0 : Fin S512x768.rank) ∈ dot_S512x768_S768x2304_S512x2304_1_0_0_1_n_n.lhsNonContracting by decide)]
      rfl
    | ⟨1, _⟩ =>
      exact (dot_S512x768_S768x2304_S512x2304_1_0_0_1_n_n.lhsIdx_val_of_single rfl (ix2 r o) _).trans
        (contrEquiv1_symm_val dot_S512x768_S768x2304_S512x2304_1_0_0_1_n_n 768 rfl rfl c))

theorem l0_rhs (r : Fin 512) (o : Fin 2304) (c : Fin 768) :
    dot_S512x768_S768x2304_S512x2304_1_0_0_1_n_n.rhsIdx (ix2 r o)
      ((contrEquiv1 dot_S512x768_S768x2304_S512x2304_1_0_0_1_n_n 768 rfl rfl).symm c) = ix2 c o :=
  funext fun a => Fin.ext (by
    match a with
    | ⟨0, _⟩ =>
      exact (dot_S512x768_S768x2304_S512x2304_1_0_0_1_n_n.rhsIdx_val_of_single rfl (ix2 r o) _).trans
        (contrEquiv1_symm_val dot_S512x768_S768x2304_S512x2304_1_0_0_1_n_n 768 rfl rfl c)
    | ⟨1, _⟩ =>
      show (dot_S512x768_S768x2304_S512x2304_1_0_0_1_n_n.rhsIdx (ix2 r o) _ 1).val = o.val
      unfold DotDims.rhsIdx
      rw [dif_neg (show ¬(1 : Fin S768x2304.rank) ∈ dot_S512x768_S768x2304_S512x2304_1_0_0_1_n_n.rhsBatch by decide),
        dif_pos (show (1 : Fin S768x2304.rank) ∈ dot_S512x768_S768x2304_S512x2304_1_0_0_1_n_n.rhsNonContracting by decide)]
      rfl)

theorem l2_lhs (r : Fin 512) (o : Fin 768) (c : Fin 768) :
    dot_S512x768_S768x768_S512x768_1_0_0_1_n_n.lhsIdx (ix2 r o)
      ((contrEquiv1 dot_S512x768_S768x768_S512x768_1_0_0_1_n_n 768 rfl rfl).symm c) = ix2 r c :=
  funext fun a => Fin.ext (by
    match a with
    | ⟨0, _⟩ =>
      show (dot_S512x768_S768x768_S512x768_1_0_0_1_n_n.lhsIdx (ix2 r o) _ 0).val = r.val
      unfold DotDims.lhsIdx
      rw [dif_neg (show ¬(0 : Fin S512x768.rank) ∈ dot_S512x768_S768x768_S512x768_1_0_0_1_n_n.lhsBatch by decide),
        dif_pos (show (0 : Fin S512x768.rank) ∈ dot_S512x768_S768x768_S512x768_1_0_0_1_n_n.lhsNonContracting by decide)]
      rfl
    | ⟨1, _⟩ =>
      exact (dot_S512x768_S768x768_S512x768_1_0_0_1_n_n.lhsIdx_val_of_single rfl (ix2 r o) _).trans
        (contrEquiv1_symm_val dot_S512x768_S768x768_S512x768_1_0_0_1_n_n 768 rfl rfl c))

theorem l2_rhs (r : Fin 512) (o : Fin 768) (c : Fin 768) :
    dot_S512x768_S768x768_S512x768_1_0_0_1_n_n.rhsIdx (ix2 r o)
      ((contrEquiv1 dot_S512x768_S768x768_S512x768_1_0_0_1_n_n 768 rfl rfl).symm c) = ix2 c o :=
  funext fun a => Fin.ext (by
    match a with
    | ⟨0, _⟩ =>
      exact (dot_S512x768_S768x768_S512x768_1_0_0_1_n_n.rhsIdx_val_of_single rfl (ix2 r o) _).trans
        (contrEquiv1_symm_val dot_S512x768_S768x768_S512x768_1_0_0_1_n_n 768 rfl rfl c)
    | ⟨1, _⟩ =>
      show (dot_S512x768_S768x768_S512x768_1_0_0_1_n_n.rhsIdx (ix2 r o) _ 1).val = o.val
      unfold DotDims.rhsIdx
      rw [dif_neg (show ¬(1 : Fin S768x768.rank) ∈ dot_S512x768_S768x768_S512x768_1_0_0_1_n_n.rhsBatch by decide),
        dif_pos (show (1 : Fin S768x768.rank) ∈ dot_S512x768_S768x768_S512x768_1_0_0_1_n_n.rhsNonContracting by decide)]
      rfl)

/-! ## The first linear kernel -/

theorem lin0_eq (x0 : Vec Ideal S512x768 .f32) (x1 : Vec Ideal S768x2304 .bf16) :
    Gen.k0_pay1 (F := Ideal) x0 x1
      = matmul dot_S512x768_S768x2304_S512x2304_1_0_0_1_n_n none
          (truncf .bf16 (shapeCast S512x768 x0 shapeCasts_S512x768_S512x768) bitsLt_bf16_f32)
          (shapeCast S768x2304 x1 shapeCasts_S768x2304_S768x2304 : FVec Ideal S768x2304 .bf16) (constant S512x2304 .f32 0x00000000#32) := rfl

/-- The stored block at `(r, o)`: row `r` of the loaded rows against column `o` of the weights. -/
theorem lin0_pay (x0 : Vec Ideal S512x768 .f32) (x1 : Vec Ideal S768x2304 .bf16) (r : Fin 512) (o : Fin 2304) :
    Gen.k0_pay1 (F := Ideal) x0 x1 (ix2 r o) = linAt (M := 512) (C := 768) (O := 2304) x0 x1 r o := by
  rw [lin0_eq]
  unfold linAt
  refine (matmul_zero_single dot_S512x768_S768x2304_S512x2304_1_0_0_1_n_n 768 rfl rfl _ _ (ix2 r o)
    (fun c => ix2 r c) (fun c => ix2 c o) (l0_lhs r o) (l0_rhs r o)).trans (Finset.sum_congr rfl fun c _ => ?_)
  exact congrArg₂ (· * ·) (congrFun (shapeCast_self x0 _) _) (congrFun (shapeCast_self x1 _) _)

/-! ## The second linear kernel, with its bias -/

theorem lin2_eq (x0 : Vec Ideal S512x768 .f32) (x1 : Vec Ideal S768x768 .bf16) (x2 : Vec Ideal S768 .f32) :
    Gen.k2_pay1 (F := Ideal) x0 x1 x2
      = addf (matmul dot_S512x768_S768x768_S512x768_1_0_0_1_n_n none
          (truncf .bf16 (shapeCast S512x768 x0 shapeCasts_S512x768_S512x768) bitsLt_bf16_f32)
          (shapeCast S768x768 x1 shapeCasts_S768x768_S768x768 : FVec Ideal S768x768 .bf16) (constant S512x768 .f32 0x00000000#32))
        (broadcastTo S512x768 (shapeCast S1x768 (shapeCast S1x768 x2 shapeCasts_S768_S1x768) shapeCasts_S1x768_S1x768)
          broadcasts_S1x768_S512x768) := rfl

/-- The stored block at `(r, o)`: the product's element plus the bias at column `o`. -/
theorem lin2_pay (x0 : Vec Ideal S512x768 .f32) (x1 : Vec Ideal S768x768 .bf16) (x2 : Vec Ideal S768 .f32) (r : Fin 512) (o : Fin 768) :
    Gen.k2_pay1 (F := Ideal) x0 x1 x2 (ix2 r o) = linAt (M := 512) (C := 768) (O := 768) x0 x1 r o + x2 (ix1 o) := by
  rw [lin2_eq]
  unfold linAt
  refine (addf_apply _ _ _).trans (congrArg₂ (· + ·) ?_ ?_)
  · refine (matmul_zero_single dot_S512x768_S768x768_S512x768_1_0_0_1_n_n 768 rfl rfl _ _ (ix2 r o)
      (fun c => ix2 r c) (fun c => ix2 c o) (l2_lhs r o) (l2_rhs r o)).trans (Finset.sum_congr rfl fun c _ => ?_)
    exact congrArg₂ (· * ·) (congrFun (shapeCast_self x0 _) _) (congrFun (shapeCast_self x1 _) _)
  · refine (broadcastTo_1b_ab_apply _ broadcasts_S1x768_S512x768 r o).trans ?_
    rw [shapeCast_self]
    exact shapeCast_a_1a_apply x2 shapeCasts_S768_S1x768 (0 : Fin 1) o

end Cert.KerBridge

end
-- ==== Proof.KerRegion0.lean ====
/-
  The first kernel region as one array function. Its grid has 16 points; point `t` loads rows `512 t … 512 t + 511` of
  the [8192, 768] input and the whole weight matrix, and writes rows `512 t … 512 t + 511` of the [8192, 2304] output.
  Every output row is in exactly the block of point `row / 512`, so after the region the output array is the matrix
  product of the two input arrays as the region found them.
-/
import proofs.«103066_j70763881169162_1_alg».proof.Proof.Gen.KernelIdeal.Frame
import proofs.«103066_j70763881169162_1_alg».proof.Proof.KerLinPay

set_option maxRecDepth 16384

noncomputable section

open scoped BigOperators

namespace Cert.KerBridge

open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the input rows move with the output rows, the weights stay, the output's
    column block is always 0 and its row block at most 15. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 15 :=
  (by decide +kernel : ∀ t : Fin grid0.N, _)

/-- Every row block is some point's. -/
theorem idx_onto0 : ∀ q : Fin 16, ∃ t : Fin cfg0.N, win0_2.index t = ![q.val, 0] :=
  (by decide +kernel : ∀ q : Fin 16, ∃ t : Fin grid0.N, win0_2.index t = ![q.val, 0])

/-- What point `t` writes back is block `t` of the product of the two arrays the region found. -/
theorem flushed0 (c : Dev nD) (t : Fin cfg0.N) :
    (dat0 V c).flushed 2 t = ((cfg0.win 2).blk t).view.read (Elt Ideal)
      (linArr (M := 8192) (C := 768) (O := 2304) (V c main_v0) (V c main_v2)) := by
  show (cfg0.win 2).cut (grid0.coords t) ((dat0 V c).after 2 t) = _
  rw [after0_2]
  unfold out0_2
  rw [View.canon_unit_zero hz2]
  simp only [View.ld_unit_zero (S := S512x768) hz2, View.ld_unit_zero (S := S768x2304) hz2]
  obtain ⟨e0, e1, e2, e3, e4, e5⟩ := idx_facts0 t
  funext j
  obtain ⟨r, o, rfl⟩ : ∃ (r : Fin 512) (o : Fin 2304), j = ix2 r o := ⟨j 0, j 1, eq_ix2 j⟩
  refine (lin0_pay (iblk0 V c 0 t) (iblk0 V c 1 t) r o).trans ?_
  show _ = linArr (M := 8192) (C := 768) (O := 2304) (V c main_v0) (V c main_v2) (((cfg0.win 2).blk t).view.emb (ix2 r o))
  unfold linArr linAt
  refine Finset.sum_congr rfl fun k _ => congrArg₂ (fun a b : EReal => a * b) ?_ ?_
  · show V c main_v0 (((cfg0.win 0).blk t).view.emb (ix2 r k)) = V c main_v0 _
    refine congrArg (V c main_v0) (funext fun a => Fin.ext ?_)
    match a with
    | ⟨0, _⟩ => show win0_0.index t (0 : Fin 2) * 512 + 1 * r.val = win0_2.index t (0 : Fin 2) * 512 + 1 * r.val; omega
    | ⟨1, _⟩ => show win0_0.index t (1 : Fin 2) * 768 + 1 * k.val = k.val; omega
  · show V c main_v2 (((cfg0.win 1).blk t).view.emb (ix2 k o)) = V c main_v2 _
    refine congrArg (V c main_v2) (funext fun a => Fin.ext ?_)
    match a with
    | ⟨0, _⟩ => show win0_1.index t (0 : Fin 2) * 768 + 1 * k.val = k.val; omega
    | ⟨1, _⟩ => show win0_1.index t (1 : Fin 2) * 2304 + 1 * o.val = win0_2.index t (1 : Fin 2) * 2304 + 1 * o.val; omega

/-- An index of the output array is in point `t`'s block iff each coordinate is in the block's range. -/
theorem mem_blk0 (t : Fin cfg0.N) (i : S8192x2304.Idx) :
    i ∈ ((cfg0.win 2).blk t).view.set ↔ ∀ a : Fin 2, win0_2.index t a * S512x2304.size a ≤ (i a).val
      ∧ (i a).val < win0_2.index t a * S512x2304.size a + S512x2304.size a := by
  show i ∈ ((View.whole main_v3).slice (win0_2.rect t)).set ↔ _
  rw [View.set_slice_whole, Rect.mem_set_unit]
  exact Iff.rfl

/-- Every output index is in some point's block: the point of row block `row / 512`. -/
theorem cover0 (i : S8192x2304.Idx) : ∃ t : Fin cfg0.N, (cfg0.win 2).flush t = true ∧ i ∈ ((cfg0.win 2).blk t).view.set := by
  have hi0 : (i 0).val < 8192 := (i 0).isLt
  have hi1 : (i 1).val < 2304 := (i 1).isLt
  obtain ⟨t, ht⟩ := idx_onto0 ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2304 ≤ (i 1).val ∧ (i 1).val < win0_2.index t (1 : Fin 2) * 2304 + 2304; omega

/-- After the region its output array is the product of its two input arrays. -/
theorem final0 (c : Dev nD) :
    (dat0 V c).arrAt 2 cfg0.N = linArr (M := 8192) (C := 768) (O := 2304) (V c main_v0) (V c main_v2) :=
  (dat0 V c).arrAt_eq_of_cover 2 _ (fun t _ => flushed0 V c t) cover0

end Cert.KerBridge

end
-- ==== Proof.KerAttnBody.lean ====
/-
  The attention kernel's stored value, element by element: the scores of a query row against every key row (a matrix
  product contracting the 64 head columns, scaled by 1/8), two softmaxes of the row, and the product with the values
  (contracting the 2048 key rows). At row `r`, column `d` of the stored block this is `Spec.attnRow`.
-/
import proofs.«103066_j70763881169162_1_alg».proof.Proof.KerAttnPay

noncomputable section

open scoped BigOperators

namespace Cert.KerBridge

open Cert.KernelIdeal Cert.KernelIdeal.Facts₀ Idealize.ShloMosaic Idealize.ShloMosaic.ValueIdx Cert.Spec

/-! ## Where the two products read their operands -/

theorem qk_lhs (r : Fin 512) (m : Fin 2048) (k : Fin 64) :
    dot_S512x64_S2048x64_S512x2048_1_1_0_0_n_n.lhsIdx (ix2 r m)
      ((contrEquiv1 dot_S512x64_S2048x64_S512x2048_1_1_0_0_n_n 64 rfl rfl).symm k) = ix2 r k :=
  funext fun a => Fin.ext (by
    match a with
    | ⟨0, _⟩ =>
      show (dot_S512x64_S2048x64_S512x2048_1_1_0_0_n_n.lhsIdx (ix2 r m) _ 0).val = r.val
      unfold DotDims.lhsIdx
      rw [dif_neg (show ¬(0 : Fin S512x64.rank) ∈ dot_S512x64_S2048x64_S512x2048_1_1_0_0_n_n.lhsBatch by decide),
        dif_pos (show (0 : Fin S512x64.rank) ∈ dot_S512x64_S2048x64_S512x2048_1_1_0_0_n_n.lhsNonContracting by decide)]
      rfl
    | ⟨1, _⟩ =>
      exact (dot_S512x64_S2048x64_S512x2048_1_1_0_0_n_n.lhsIdx_val_of_single rfl (ix2 r m) _).trans
        (contrEquiv1_symm_val dot_S512x64_S2048x64_S512x2048_1_1_0_0_n_n 64 rfl rfl k))

theorem qk_rhs (r : Fin 512) (m : Fin 2048) (k : Fin 64) :
    dot_S512x64_S2048x64_S512x2048_1_1_0_0_n_n.rhsIdx (ix2 r m)
      ((contrEquiv1 dot_S512x64_S2048x64_S512x2048_1_1_0_0_n_n 64 rfl rfl).symm k) = ix2 m k :=
  funext fun a => Fin.ext (by
    match a with
    | ⟨0, _⟩ =>
      show (dot_S512x64_S2048x64_S512x2048_1_1_0_0_n_n.rhsIdx (ix2 r m) _ 0).val = m.val
      unfold DotDims.rhsIdx
      rw [dif_neg (show ¬(0 : Fin S2048x64.rank) ∈ dot_S512x64_S2048x64_S512x2048_1_1_0_0_n_n.rhsBatch by decide),
        dif_pos (show (0 : Fin S2048x64.rank) ∈ dot_S512x64_S2048x64_S512x2048_1_1_0_0_n_n.rhsNonContracting by decide)]
      rfl
    | ⟨1, _⟩ =>
      exact (dot_S512x64_S2048x64_S512x2048_1_1_0_0_n_n.rhsIdx_val_of_single rfl (ix2 r m) _).trans
        (contrEquiv1_symm_val dot_S512x64_S2048x64_S512x2048_1_1_0_0_n_n 64 rfl rfl k))

theorem pv_lhs (r : Fin 512) (d : Fin 64) (m : Fin 2048) :
    dot_S512x2048_S2048x64_S512x64_1_0_0_1_n_n.lhsIdx (ix2 r d)
      ((contrEquiv1 dot_S512x2048_S2048x64_S512x64_1_0_0_1_n_n 2048 rfl rfl).symm m) = ix2 r m :=
  funext fun a => Fin.ext (by
    match a with
    | ⟨0, _⟩ =>
      show (dot_S512x2048_S2048x64_S512x64_1_0_0_1_n_n.lhsIdx (ix2 r d) _ 0).val = r.val
      unfold DotDims.lhsIdx
      rw [dif_neg (show ¬(0 : Fin S512x2048.rank) ∈ dot_S512x2048_S2048x64_S512x64_1_0_0_1_n_n.lhsBatch by decide),
        dif_pos (show (0 : Fin S512x2048.rank) ∈ dot_S512x2048_S2048x64_S512x64_1_0_0_1_n_n.lhsNonContracting by decide)]
      rfl
    | ⟨1, _⟩ =>
      exact (dot_S512x2048_S2048x64_S512x64_1_0_0_1_n_n.lhsIdx_val_of_single rfl (ix2 r d) _).trans
        (contrEquiv1_symm_val dot_S512x2048_S2048x64_S512x64_1_0_0_1_n_n 2048 rfl rfl m))

theorem pv_rhs (r : Fin 512) (d : Fin 64) (m : Fin 2048) :
    dot_S512x2048_S2048x64_S512x64_1_0_0_1_n_n.rhsIdx (ix2 r d)
      ((contrEquiv1 dot_S512x2048_S2048x64_S512x64_1_0_0_1_n_n 2048 rfl rfl).symm m) = ix2 m d :=
  funext fun a => Fin.ext (by
    match a with
    | ⟨0, _⟩ =>
      exact (dot_S512x2048_S2048x64_S512x64_1_0_0_1_n_n.rhsIdx_val_of_single rfl (ix2 r d) _).trans
        (contrEquiv1_symm_val dot_S512x2048_S2048x64_S512x64_1_0_0_1_n_n 2048 rfl rfl m)
    | ⟨1, _⟩ =>
      show (dot_S512x2048_S2048x64_S512x64_1_0_0_1_n_n.rhsIdx (ix2 r d) _ 1).val = d.val
      unfold DotDims.rhsIdx
      rw [dif_neg (show ¬(1 : Fin S2048x64.rank) ∈ dot_S512x2048_S2048x64_S512x64_1_0_0_1_n_n.rhsBatch by decide),
        dif_pos (show (1 : Fin S2048x64.rank) ∈ dot_S512x2048_S2048x64_S512x64_1_0_0_1_n_n.rhsNonContracting by decide)]
      rfl)

/-! ## The blocks as the body views them -/

/-- A [1, 1, 512, 64] block viewed as [512, 64]. -/
theorem q_view (x0 : Vec Ideal S1x1x512x64 .f32) (r : Fin 512) (k : Fin 64) :
    shapeCast S512x64 x0 shapeCasts_S1x1x512x64_S512x64 (ix2 r k) = x0 (ix4 (0 : Fin 1) (0 : Fin 1) r k) :=
  shapeCast_apply x0 shapeCasts_S1x1x512x64_S512x64 (ix2 r k) (ix4 (0 : Fin 1) (0 : Fin 1) r k)
    (by rw [Shape.rowMajor_val_four, Shape.rowMajor_val_two]; show ((0 * 1 + 0) * 512 + r.val) * 64 + k.val = r.val * 64 + k.val; omega)

/-- A [1, 1, 2048, 64] block viewed as [2048, 64]. -/
theorem kv_view (x1 : Vec Ideal S1x1x2048x64 .f32) (m : Fin 2048) (k : Fin 64) :
    shapeCast S2048x64 x1 shapeCasts_S1x1x2048x64_S2048x64 (ix2 m k) = x1 (ix4 (0 : Fin 1) (0 : Fin 1) m k) :=
  shapeCast_apply x1 shapeCasts_S1x1x2048x64_S2048x64 (ix2 m k) (ix4 (0 : Fin 1) (0 : Fin 1) m k)
    (by rw [Shape.rowMajor_val_four, Shape.rowMajor_val_two]; show ((0 * 1 + 0) * 2048 + m.val) * 64 + k.val = m.val * 64 + k.val; omega)

/-! ## The scores -/

/-- The body's scaled scores. -/
def kerScores (x0 : Vec Ideal S1x1x512x64 .f32) (x1 : Vec Ideal S1x1x2048x64 .f32) : FVec Ideal S512x2048 .f32 :=
  mulf (matmul dot_S512x64_S2048x64_S512x2048_1_1_0_0_n_n none
      (truncf .bf16 (shapeCast S512x64 x0 shapeCasts_S1x1x512x64_S512x64) bitsLt_bf16_f32)
      (truncf .bf16 (shapeCast S2048x64 x1 shapeCasts_S1x1x2048x64_S2048x64) bitsLt_bf16_f32)
      (constant S512x2048 .f32 0x00000000#32))
    (broadcast S512x2048 (Scalar.ofBits (F := Ideal) .f32 0x3E000000#32))

theorem kerScores_apply (x0 : Vec Ideal S1x1x512x64 .f32) (x1 : Vec Ideal S1x1x2048x64 .f32) (r : Fin 512) (m : Fin 2048) :
    kerScores x0 x1 (ix2 r m)
      = scores (fun d => x0 (ix4 (0 : Fin 1) (0 : Fin 1) r d)) (fun m' d => x1 (ix4 (0 : Fin 1) (0 : Fin 1) m' d)) m := by
  unfold kerScores scores
  refine (mulf_apply _ _ _).trans (congrArg₂ (· * ·) ?_ ((broadcast_apply _ _).trans (Ideal.ofBits_def _)))
  refine (matmul_zero_single dot_S512x64_S2048x64_S512x2048_1_1_0_0_n_n 64 rfl rfl _ _ (ix2 r m)
    (fun k => ix2 r k) (fun k => ix2 m k) (qk_lhs r m) (qk_rhs r m)).trans (Finset.sum_congr rfl fun k _ => ?_)
  exact congrArg₂ (· * ·) (q_view x0 r k) (kv_view x1 m k)

/-! ## The stored value -/

/-- The body's value before the final view: the two products around the doubly softmaxed scores. -/
theorem body_eq (x0 : Vec Ideal S1x1x512x64 .f32) (x1 x2 : Vec Ideal S1x1x2048x64 .f32) :
    Gen.k1_pay2 (F := Ideal) x0 x1 x2
      = matmul dot_S512x2048_S2048x64_S512x64_1_0_0_1_n_n none
          (truncf .bf16 (kerSoftmax (kerSoftmax (kerScores x0 x1))) bitsLt_bf16_f32)
          (truncf .bf16 (shapeCast S2048x64 x2 shapeCasts_S1x1x2048x64_S2048x64) bitsLt_bf16_f32)
          (constant S512x64 .f32 0x00000000#32) := rfl

/-- The stored block at `(0, 0, r, d)` is the attention of query row `r` at column `d`. -/
theorem attn_pay (x0 : Vec Ideal S1x1x512x64 .f32) (x1 x2 : Vec Ideal S1x1x2048x64 .f32) (r : Fin 512) (d : Fin 64) :
    Gen.k1_pay1 (F := Ideal) (Gen.k1_pay2 (F := Ideal) x0 x1 x2) (ix4 (0 : Fin 1) (0 : Fin 1) r d)
      = attnRow (fun d' => x0 (ix4 (0 : Fin 1) (0 : Fin 1) r d')) (fun m d' => x1 (ix4 (0 : Fin 1) (0 : Fin 1) m d'))
          (fun m d' => x2 (ix4 (0 : Fin 1) (0 : Fin 1) m d')) d := by
  unfold Gen.k1_pay1
  refine (shapeCast_apply _ shapeCasts_S512x64_S1x1x512x64 (ix4 (0 : Fin 1) (0 : Fin 1) r d) (ix2 r d)
    (by rw [Shape.rowMajor_val_four, Shape.rowMajor_val_two]; show r.val * 64 + d.val = ((0 * 1 + 0) * 512 + r.val) * 64 + d.val; omega)).trans ?_
  rw [body_eq]
  unfold attnRow
  refine (matmul_zero_single dot_S512x2048_S2048x64_S512x64_1_0_0_1_n_n 2048 rfl rfl _ _ (ix2 r d)
    (fun m => ix2 r m) (fun m => ix2 m d) (pv_lhs r d) (pv_rhs r d)).trans (Finset.sum_congr rfl fun m _ => ?_)
  refine congrArg₂ (· * ·) ?_ (kv_view x2 m d)
  refine (kerSoftmax_apply _ r m).trans (congrArg (fun f : Fin 2048 → EReal => softmaxRow f m) (funext fun m' => ?_))
  exact (kerSoftmax_apply _ r m').trans (congrArg (fun f : Fin 2048 → EReal => softmaxRow f m') (funext fun m'' => kerScores_apply x0 x1 r m''))

end Cert.KerBridge

end
-- ==== Proof.KerRegion1.lean ====
/-
  The attention kernel region as one array function. Its grid is 4 × 12 × 4: batch, head, and a block of 512 query rows.
  Point `(b, h, q)` loads query rows `512 q … 512 q + 511` of head `(b, h)` and ALL 2048 key and value rows of that head,
  and writes output rows `512 q … 512 q + 511` of head `(b, h)`. Every output element `(b, h, r, d)` is in the block of
  point `(b, h, r / 512)`, so after the region the output array is the attention of the three input arrays.
-/
import proofs.«103066_j70763881169162_1_alg».proof.Proof.Gen.KernelIdeal.Frame
import proofs.«103066_j70763881169162_1_alg».proof.Proof.KerAttnBody

set_option maxRecDepth 16384

noncomputable section

open scoped BigOperators

namespace Cert.KerBridge

open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)

variable (V : (c : Dev nD) → (b : Ref sig .tc) → Buf (Elt Ideal) ((c : Thread nD τ).loc b))

theorem hz4 : (![0, 0, 0, 0] : Fin 4 → Nat) = fun _ => 0 := funext fun a => by fin_cases a <;> rfl

/-- The attention array at an index whose coordinates are known. -/
theorem attnArr_at (Q K W : (⟨4, ![4, 12, 2048, 64]⟩ : Shape).Idx → EReal) (i : (⟨4, ![4, 12, 2048, 64]⟩ : Shape).Idx)
    (b : Fin 4) (h : Fin 12) (r : Fin 2048) (d : Fin 64)
    (h0 : (i 0).val = b.val) (h1 : (i 1).val = h.val) (h2 : (i 2).val = r.val) (h3 : (i 3).val = d.val) :
    attnArr Q K W i = attnAt Q K W b h r d := by
  unfold attnArr
  have e0 : (⟨(i 0).val, (i 0).isLt⟩ : Fin 4) = b := Fin.ext h0
  have e1 : (⟨(i 1).val, (i 1).isLt⟩ : Fin 12) = h := Fin.ext h1
  have e2 : (⟨(i 2).val, (i 2).isLt⟩ : Fin 2048) = r := Fin.ext h2
  have e3 : (⟨(i 3).val, (i 3).isLt⟩ : Fin 64) = d := Fin.ext h3
  rw [e0, e1, e2, e3]

/-- The printed index maps over the grid: the query block moves with the output block; the key and value blocks follow
    its batch and head and stay at row block 0; the column block is always 0; the output's block indices are in range. -/
theorem idx_facts1 : ∀ t : Fin cfg1.N,
    win1_0.index t (0 : Fin 4) = win1_3.index t (0 : Fin 4) ∧ win1_0.index t (1 : Fin 4) = win1_3.index t (1 : Fin 4)
    ∧ win1_0.index t (2 : Fin 4) = win1_3.index t (2 : Fin 4) ∧ win1_0.index t (3 : Fin 4) = 0
    ∧ win1_1.index t (0 : Fin 4) = win1_3.index t (0 : Fin 4) ∧ win1_1.index t (1 : Fin 4) = win1_3.index t (1 : Fin 4)
    ∧ win1_1.index t (2 : Fin 4) = 0 ∧ win1_1.index t (3 : Fin 4) = 0
    ∧ win1_2.index t (0 : Fin 4) = win1_3.index t (0 : Fin 4) ∧ win1_2.index t (1 : Fin 4) = win1_3.index t (1 : Fin 4)
    ∧ win1_2.index t (2 : Fin 4) = 0 ∧ win1_2.index t (3 : Fin 4) = 0
    ∧ win1_3.index t (3 : Fin 4) = 0
    ∧ win1_3.index t (0 : Fin 4) ≤ 3 ∧ win1_3.index t (1 : Fin 4) ≤ 11 ∧ win1_3.index t (2 : Fin 4) ≤ 3 :=
  (by decide +kernel : ∀ t : Fin grid1.N, _)

/-- Every (batch, head, row block) is some point's. -/
theorem idx_onto1 : ∀ (q0 : Fin 4) (q1 : Fin 12) (q2 : Fin 4), ∃ t : Fin cfg1.N, win1_3.index t = ![q0.val, q1.val, q2.val, 0] :=
  (by decide +kernel : ∀ (q0 : Fin 4) (q1 : Fin 12) (q2 : Fin 4), ∃ t : Fin grid1.N, win1_3.index t = ![q0.val, q1.val, q2.val, 0])

/-- What point `t` writes back is block `t` of the attention of the three arrays the region found. -/
theorem flushed1 (c : Dev nD) (t : Fin cfg1.N) :
    (dat1 V c).flushed 3 t = ((cfg1.win 3).blk t).view.read (Elt Ideal)
      (attnArr (V c main_v7) (V c main_v9) (V c main_v11)) := by
  show (cfg1.win 3).cut (grid1.coords t) ((dat1 V c).after 3 t) = _
  rw [after1_3]
  unfold out1_3
  rw [View.canon_unit_zero hz4]
  simp only [View.ld_unit_zero (S := S1x1x512x64) hz4, View.ld_unit_zero (S := S1x1x2048x64) hz4]
  obtain ⟨a0, a1, a2, a3, b0, b1, b2, b3, c0, c1, c2, c3, d3, l0, l1, l2⟩ := idx_facts1 t
  funext j
  obtain ⟨u0, u1, r, d, rfl⟩ : ∃ (u0 u1 : Fin 1) (r : Fin 512) (d : Fin 64), j = ix4 u0 u1 r d := ⟨j 0, j 1, j 2, j 3, eq_ix4 j⟩
  obtain rfl : u0 = 0 := Subsingleton.elim _ _
  obtain rfl : u1 = 0 := Subsingleton.elim _ _
  refine (attn_pay (iblk1 V c 0 t) (iblk1 V c 1 t) (iblk1 V c 2 t) r d).trans ?_
  have hr : r.val < 512 := r.isLt
  show _ = attnArr (V c main_v7) (V c main_v9) (V c main_v11) (((cfg1.win 3).blk t).view.emb (ix4 (0 : Fin 1) (0 : Fin 1) r d))
  refine Eq.trans ?_ (attnArr_at (V c main_v7) (V c main_v9) (V c main_v11) _
    (⟨win1_3.index t (0 : Fin 4), by omega⟩ : Fin 4) (⟨win1_3.index t (1 : Fin 4), by omega⟩ : Fin 12)
    (⟨win1_3.index t (2 : Fin 4) * 512 + r.val, by omega⟩ : Fin 2048) d
    (show win1_3.index t (0 : Fin 4) * 1 + 1 * 0 = win1_3.index t (0 : Fin 4) by omega)
    (show win1_3.index t (1 : Fin 4) * 1 + 1 * 0 = win1_3.index t (1 : Fin 4) by omega)
    (show win1_3.index t (2 : Fin 4) * 512 + 1 * r.val = win1_3.index t (2 : Fin 4) * 512 + r.val by omega)
    (show win1_3.index t (3 : Fin 4) * 64 + 1 * d.val = d.val by omega)).symm
  unfold attnAt
  have hq : (fun d' : Fin 64 => iblk1 V c 0 t (ix4 (0 : Fin 1) (0 : Fin 1) r d'))
      = fun d' : Fin 64 => V c main_v7 (ix4 (⟨win1_3.index t (0 : Fin 4), by omega⟩ : Fin 4) (⟨win1_3.index t (1 : Fin 4), by omega⟩ : Fin 12)
          (⟨win1_3.index t (2 : Fin 4) * 512 + r.val, by omega⟩ : Fin 2048) d') := funext fun d' => by
    show V c main_v7 (((cfg1.win 0).blk t).view.emb (ix4 (0 : Fin 1) (0 : Fin 1) r d')) = V c main_v7 _
    refine congrArg (V c main_v7) (funext fun a => Fin.ext ?_)
    match a with
    | ⟨0, _⟩ => show win1_0.index t (0 : Fin 4) * 1 + 1 * 0 = win1_3.index t (0 : Fin 4); omega
    | ⟨1, _⟩ => show win1_0.index t (1 : Fin 4) * 1 + 1 * 0 = win1_3.index t (1 : Fin 4); omega
    | ⟨2, _⟩ => show win1_0.index t (2 : Fin 4) * 512 + 1 * r.val = win1_3.index t (2 : Fin 4) * 512 + r.val; omega
    | ⟨3, _⟩ => show win1_0.index t (3 : Fin 4) * 64 + 1 * d'.val = d'.val; omega
  have hk : (fun (m : Fin 2048) (d' : Fin 64) => iblk1 V c 1 t (ix4 (0 : Fin 1) (0 : Fin 1) m d'))
      = fun (m : Fin 2048) (d' : Fin 64) => V c main_v9 (ix4 (⟨win1_3.index t (0 : Fin 4), by omega⟩ : Fin 4) (⟨win1_3.index t (1 : Fin 4), by omega⟩ : Fin 12) m d') :=
    funext fun m => funext fun d' => by
    show V c main_v9 (((cfg1.win 1).blk t).view.emb (ix4 (0 : Fin 1) (0 : Fin 1) m d')) = V c main_v9 _
    refine congrArg (V c main_v9) (funext fun a => Fin.ext ?_)
    match a with
    | ⟨0, _⟩ => show win1_1.index t (0 : Fin 4) * 1 + 1 * 0 = win1_3.index t (0 : Fin 4); omega
    | ⟨1, _⟩ => show win1_1.index t (1 : Fin 4) * 1 + 1 * 0 = win1_3.index t (1 : Fin 4); omega
    | ⟨2, _⟩ => show win1_1.index t (2 : Fin 4) * 2048 + 1 * m.val = m.val; omega
    | ⟨3, _⟩ => show win1_1.index t (3 : Fin 4) * 64 + 1 * d'.val = d'.val; omega
  have hv : (fun (m : Fin 2048) (d' : Fin 64) => iblk1 V c 2 t (ix4 (0 : Fin 1) (0 : Fin 1) m d'))
      = fun (m : Fin 2048) (d' : Fin 64) => V c main_v11 (ix4 (⟨win1_3.index t (0 : Fin 4), by omega⟩ : Fin 4) (⟨win1_3.index t (1 : Fin 4), by omega⟩ : Fin 12) m d') :=
    funext fun m => funext fun d' => by
    show V c main_v11 (((cfg1.win 2).blk t).view.emb (ix4 (0 : Fin 1) (0 : Fin 1) m d')) = V c main_v11 _
    refine congrArg (V c main_v11) (funext fun a => Fin.ext ?_)
    match a with
    | ⟨0, _⟩ => show win1_2.index t (0 : Fin 4) * 1 + 1 * 0 = win1_3.index t (0 : Fin 4); omega
    | ⟨1, _⟩ => show win1_2.index t (1 : Fin 4) * 1 + 1 * 0 = win1_3.index t (1 : Fin 4); omega
    | ⟨2, _⟩ => show win1_2.index t (2 : Fin 4) * 2048 + 1 * m.val = m.val; omega
    | ⟨3, _⟩ => show win1_2.index t (3 : Fin 4) * 64 + 1 * d'.val = d'.val; omega
  rw [hq, hk, hv]

/-- An index of the output array is in point `t`'s block iff each coordinate is in the block's range. -/
theorem mem_blk1 (t : Fin cfg1.N) (i : S4x12x2048x64.Idx) :
    i ∈ ((cfg1.win 3).blk t).view.set ↔ ∀ a : Fin 4, win1_3.index t a * S1x1x512x64.size a ≤ (i a).val
      ∧ (i a).val < win1_3.index t a * S1x1x512x64.size a + S1x1x512x64.size a := by
  show i ∈ ((View.whole main_v12).slice (win1_3.rect t)).set ↔ _
  rw [View.set_slice_whole, Rect.mem_set_unit]
  exact Iff.rfl

/-- Every output index is in some point's block: the point of its batch, its head and row block `row / 512`. -/
theorem cover1 (i : S4x12x2048x64.Idx) : ∃ t : Fin cfg1.N, (cfg1.win 3).flush t = true ∧ i ∈ ((cfg1.win 3).blk t).view.set := by
  have hi0 : (i 0).val < 4 := (i 0).isLt
  have hi1 : (i 1).val < 12 := (i 1).isLt
  have hi2 : (i 2).val < 2048 := (i 2).isLt
  have hi3 : (i 3).val < 64 := (i 3).isLt
  obtain ⟨t, ht⟩ := idx_onto1 ⟨(i 0).val, hi0⟩ ⟨(i 1).val, hi1⟩ ⟨(i 2).val / 512, by omega⟩
  have q0 : win1_3.index t (0 : Fin 4) = (i 0).val := congrFun ht 0
  have q1 : win1_3.index t (1 : Fin 4) = (i 1).val := congrFun ht 1
  have q2 : win1_3.index t (2 : Fin 4) = (i 2).val / 512 := congrFun ht 2
  have q3 : win1_3.index t (3 : Fin 4) = 0 := congrFun ht 3
  refine ⟨t, flush1_3 t, ?_⟩
  rw [mem_blk1]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 512 ≤ (i 2).val ∧ (i 2).val < win1_3.index t (2 : Fin 4) * 512 + 512; omega
  | ⟨3, _⟩ => show win1_3.index t (3 : Fin 4) * 64 ≤ (i 3).val ∧ (i 3).val < win1_3.index t (3 : Fin 4) * 64 + 64; omega

/-- After the region its output array is the attention of its three input arrays. -/
theorem final1 (c : Dev nD) :
    (dat1 V c).arrAt 3 cfg1.N = attnArr (V c main_v7) (V c main_v9) (V c main_v11) :=
  (dat1 V c).arrAt_eq_of_cover 3 _ (fun t _ => flushed1 V c t) cover1

end Cert.KerBridge

end
-- ==== Proof.KerRegion2.lean ====
/-
  The third kernel region as one array function. Its grid has 16 points; point `t` loads rows `512 t … 512 t + 511` of
  the [8192, 768] input, the whole weight matrix and the whole bias row, and writes the same rows of the [8192, 768]
  output: the product plus the bias. Every output row is in the block of point `row / 512`.
-/
import proofs.«103066_j70763881169162_1_alg».proof.Proof.Gen.KernelIdeal.Frame
import proofs.«103066_j70763881169162_1_alg».proof.Proof.KerLinPay

set_option maxRecDepth 16384

noncomputable section

open scoped BigOperators

namespace Cert.KerBridge

open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)

variable (V : (c : Dev nD) → (b : Ref sig .tc) → Buf (Elt Ideal) ((c : Thread nD τ).loc b))

theorem hz2' : (![0, 0] : Fin 2 → Nat) = fun _ => 0 := funext fun a => by fin_cases a <;> rfl
theorem hz1 : (![0] : Fin 1 → Nat) = fun _ => 0 := funext fun a => by fin_cases a; rfl

/-- The printed index maps over the grid: the input rows move with the output rows, the weights and the bias stay. -/
theorem idx_facts2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 1) = 0
    ∧ win2_3.index t (1 : Fin 2) = 0
    ∧ win2_3.index t (0 : Fin 2) ≤ 15 :=
  (by decide +kernel : ∀ t : Fin grid2.N, _)

/-- Every row block is some point's. -/
theorem idx_onto2 : ∀ q : Fin 16, ∃ t : Fin cfg2.N, win2_3.index t = ![q.val, 0] :=
  (by decide +kernel : ∀ q : Fin 16, ∃ t : Fin grid2.N, win2_3.index t = ![q.val, 0])

/-- What point `t` writes back is block `t` of the product plus bias of the arrays the region found. -/
theorem flushed2 (c : Dev nD) (t : Fin cfg2.N) :
    (dat2 V c).flushed 3 t = ((cfg2.win 3).blk t).view.read (Elt Ideal)
      (linBiasArr (M := 8192) (C := 768) (O := 768) (V c main_v14) (V c main_v16) (V c main_arg3)) := by
  show (cfg2.win 3).cut (grid2.coords t) ((dat2 V c).after 3 t) = _
  rw [after2_3]
  unfold out2_3
  rw [View.canon_unit_zero hz2']
  simp only [View.ld_unit_zero (S := S512x768) hz2', View.ld_unit_zero (S := S768x768) hz2', View.ld_unit_zero (S := S768) hz1]
  obtain ⟨e0, e1, e2, e3, e4, e5, e6⟩ := idx_facts2 t
  funext j
  obtain ⟨r, o, rfl⟩ : ∃ (r : Fin 512) (o : Fin 768), j = ix2 r o := ⟨j 0, j 1, eq_ix2 j⟩
  refine (lin2_pay (iblk2 V c 0 t) (iblk2 V c 1 t) (iblk2 V c 2 t) r o).trans ?_
  unfold linBiasArr linAt
  refine congrArg₂ (fun a b : EReal => a + b) (Finset.sum_congr rfl fun k _ => congrArg₂ (fun a b : EReal => a * b) ?_ ?_) ?_
  · show V c main_v14 (((cfg2.win 0).blk t).view.emb (ix2 r k)) = V c main_v14 _
    refine congrArg (V c main_v14) (funext fun a => Fin.ext ?_)
    match a with
    | ⟨0, _⟩ => show win2_0.index t (0 : Fin 2) * 512 + 1 * r.val = win2_3.index t (0 : Fin 2) * 512 + 1 * r.val; omega
    | ⟨1, _⟩ => show win2_0.index t (1 : Fin 2) * 768 + 1 * k.val = k.val; omega
  · show V c main_v16 (((cfg2.win 1).blk t).view.emb (ix2 k o)) = V c main_v16 _
    refine congrArg (V c main_v16) (funext fun a => Fin.ext ?_)
    match a with
    | ⟨0, _⟩ => show win2_1.index t (0 : Fin 2) * 768 + 1 * k.val = k.val; omega
    | ⟨1, _⟩ => show win2_1.index t (1 : Fin 2) * 768 + 1 * o.val = win2_3.index t (1 : Fin 2) * 768 + 1 * o.val; omega
  · show V c main_arg3 (((cfg2.win 2).blk t).view.emb (ix1 o)) = V c main_arg3 _
    refine congrArg (V c main_arg3) (funext fun a => Fin.ext ?_)
    match a with
    | ⟨0, _⟩ => show win2_2.index t (0 : Fin 1) * 768 + 1 * o.val = win2_3.index t (1 : Fin 2) * 768 + 1 * o.val; omega

/-- An index of the output array is in point `t`'s block iff each coordinate is in the block's range. -/
theorem mem_blk2 (t : Fin cfg2.N) (i : S8192x768.Idx) :
    i ∈ ((cfg2.win 3).blk t).view.set ↔ ∀ a : Fin 2, win2_3.index t a * S512x768.size a ≤ (i a).val
      ∧ (i a).val < win2_3.index t a * S512x768.size a + S512x768.size a := by
  show i ∈ ((View.whole main_v17).slice (win2_3.rect t)).set ↔ _
  rw [View.set_slice_whole, Rect.mem_set_unit]
  exact Iff.rfl

/-- Every output index is in some point's block: the point of row block `row / 512`. -/
theorem cover2 (i : S8192x768.Idx) : ∃ t : Fin cfg2.N, (cfg2.win 3).flush t = true ∧ i ∈ ((cfg2.win 3).blk t).view.set := by
  have hi0 : (i 0).val < 8192 := (i 0).isLt
  have hi1 : (i 1).val < 768 := (i 1).isLt
  obtain ⟨t, ht⟩ := idx_onto2 ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 768 ≤ (i 1).val ∧ (i 1).val < win2_3.index t (1 : Fin 2) * 768 + 768; omega

/-- After the region its output array is the product of its two input arrays plus the bias row. -/
theorem final2 (c : Dev nD) :
    (dat2 V c).arrAt 3 cfg2.N = linBiasArr (M := 8192) (C := 768) (O := 768) (V c main_v14) (V c main_v16) (V c main_arg3) :=
  (dat2 V c).arrAt_eq_of_cover 3 _ (fun t _ => flushed2 V c t) cover2

end Cert.KerBridge

end
-- ==== Proof.RefAttn.lean ====
/-
  The reference's attention stage is the specification's: its scores, its two softmaxes (a row maximum from `-∞`, the
  exponentials of the differences, their row sum, the quotient) and its product with the values, read at an index, are
  `Spec.attnAt` of the three projected arrays.
-/
import proofs.«103066_j70763881169162_1_alg».proof.Proof.Gen.ReferenceIdeal.Read
import proofs.«103066_j70763881169162_1_alg».proof.Proof.Spec
import Idealize.ShloMosaic.PureOps.Reduce

noncomputable section

open scoped BigOperators

namespace Cert.RefBridge

open Cert.ReferenceIdeal Cert.ReferenceIdeal.Read Cert.ReferenceIdeal.Facts₀ Idealize.ShloMosaic Idealize.ShloMosaic.ValueIdx Cert.Spec

/-- A [4,12,2048] array broadcast along a new last axis and then along that axis to [4,12,2048,2048], read at
    `(b, h, r, m)`, is the array at `(b, h, r)`. -/
theorem col_bcast (v : S4x12x2048.Idx → EReal) (b : Fin 4) (h : Fin 12) (r m : Fin 2048) :
    broadcastInDim S4x12x2048x2048 ![0, 1, 2, 3] bcast_S4x12x2048x1_S4x12x2048x2048_0_1_2_3
      (broadcastInDim S4x12x2048x1 ![0, 1, 2] bcast_S4x12x2048_S4x12x2048x1_0_1_2 v) (ix4 b h r m) = v (ix3 b h r) :=
  (broadcastInDim_apply _ bcast_S4x12x2048x1_S4x12x2048x2048_0_1_2_3 _ (ix4 b h r m) (ix4 b h r (0 : Fin 1)) (fun a => match a with
    | ⟨0, _⟩ => by show b.val = if (4 : Nat) = 1 then 0 else b.val; rw [if_neg (by decide)]
    | ⟨1, _⟩ => by show h.val = if (12 : Nat) = 1 then 0 else h.val; rw [if_neg (by decide)]
    | ⟨2, _⟩ => by show r.val = if (2048 : Nat) = 1 then 0 else r.val; rw [if_neg (by decide)]
    | ⟨3, _⟩ => by show 0 = if (1 : Nat) = 1 then 0 else m.val; rw [if_pos rfl])).trans
  (broadcastInDim_apply _ bcast_S4x12x2048_S4x12x2048x1_0_1_2 v (ix4 b h r (0 : Fin 1)) (ix3 b h r) (fun a => match a with
    | ⟨0, _⟩ => by show b.val = if (4 : Nat) = 1 then 0 else b.val; rw [if_neg (by decide)]
    | ⟨1, _⟩ => by show h.val = if (12 : Nat) = 1 then 0 else h.val; rw [if_neg (by decide)]
    | ⟨2, _⟩ => by show r.val = if (2048 : Nat) = 1 then 0 else r.val; rw [if_neg (by decide)]))

/-- The reduced index `(b, h, r)` with the last coordinate put back. -/
theorem lift_last (hr : S4x12x2048x2048.Reduces [3] S4x12x2048) (b : Fin 4) (h : Fin 12) (r : Fin 2048)
    (k : Fin (S4x12x2048x2048.size 3)) : hr.lift (ix3 b h r) k = ix4 b h r (⟨k.val, k.isLt⟩ : Fin 2048) :=
  funext fun a => Fin.ext (by match a with | ⟨0, _⟩ => rfl | ⟨1, _⟩ => rfl | ⟨2, _⟩ => rfl | ⟨3, _⟩ => rfl)

/-- The host's maximum over the last axis, from a constant, is the fold of `max` over the row. -/
theorem host_rowmax (s : S4x12x2048x2048.Idx → EReal) (w : BitVec 32) (b : Fin 4) (h : Fin 12) (r : Fin 2048) :
    Host.reduce (FloatOps.maximumf (F := Ideal) (φ := .f32)) s (constant (F := Ideal) S_ .f32 w) reducesTo_S4x12x2048x2048_S4x12x2048_d3 h_S_ (ix3 b h r)
      = (Finset.univ : Finset (Fin 2048)).fold max (Ideal.ofBits .f32 w) (fun m => s (ix4 b h r m)) := by
  rw [Host.reduce_eq_fold_single (FloatOps.maximumf (F := Ideal) (φ := .f32)) s _ reducesTo_S4x12x2048x2048_S4x12x2048_d3 (by decide) h_S_]
  exact congrArg (fun f => Finset.fold max (Ideal.ofBits .f32 w) f (Finset.univ : Finset (Fin 2048)))
    (funext fun k => congrArg s (lift_last _ b h r k))

/-- The host's sum over the last axis, from the zero word, is the row's sum. -/
theorem host_rowsum (e : S4x12x2048x2048.Idx → EReal) (b : Fin 4) (h : Fin 12) (r : Fin 2048) :
    Host.reduceAdd (F := Ideal) e (constant (F := Ideal) S_ .f32 0x00000000#32) reducesTo_S4x12x2048x2048_S4x12x2048_d3 h_S_ (ix3 b h r)
      = ∑ m : Fin 2048, e (ix4 b h r m) := by
  simp only [Host.reduceAdd, Ideal.hostReduceAdd_def]
  rw [Ideal.hostReduceAdd_single reducesTo_S4x12x2048x2048_S4x12x2048_d3 (by decide)]
  show Ideal.ofBits .f32 0x00000000#32 + _ = _
  rw [Ideal.ofBits_zero_f32, zero_add]
  exact Finset.sum_congr rfl fun k _ => congrArg e (lift_last _ b h r k)

/-- The host's softmax over the last axis, as the reference spells it. -/
def hostSoftmax (s : (⟨S4x12x2048x2048, .f32⟩ : BufTy).Contents (Elt Ideal)) : (⟨S4x12x2048x2048, .f32⟩ : BufTy).Contents (Elt Ideal) :=
  Host.divf
    (Host.exp (subf s (broadcastInDim S4x12x2048x2048 ![0, 1, 2, 3] bcast_S4x12x2048x1_S4x12x2048x2048_0_1_2_3
      (broadcastInDim S4x12x2048x1 ![0, 1, 2] bcast_S4x12x2048_S4x12x2048x1_0_1_2
        (maximumf (broadcastInDim S4x12x2048 ![] bcast_S_S4x12x2048 (constant (F := Ideal) S_ .f32 0xFF800000#32))
          (Host.reduce (FloatOps.maximumf (F := Ideal) (φ := .f32)) s (constant (F := Ideal) S_ .f32 0xFF800000#32) reducesTo_S4x12x2048x2048_S4x12x2048_d3 h_S_))))))
    (broadcastInDim S4x12x2048x2048 ![0, 1, 2, 3] bcast_S4x12x2048x1_S4x12x2048x2048_0_1_2_3
      (broadcastInDim S4x12x2048x1 ![0, 1, 2] bcast_S4x12x2048_S4x12x2048x1_0_1_2
        (Host.reduceAdd
          (Host.exp (subf s (broadcastInDim S4x12x2048x2048 ![0, 1, 2, 3] bcast_S4x12x2048x1_S4x12x2048x2048_0_1_2_3
            (broadcastInDim S4x12x2048x1 ![0, 1, 2] bcast_S4x12x2048_S4x12x2048x1_0_1_2
              (maximumf (broadcastInDim S4x12x2048 ![] bcast_S_S4x12x2048 (constant (F := Ideal) S_ .f32 0xFF800000#32))
                (Host.reduce (FloatOps.maximumf (F := Ideal) (φ := .f32)) s (constant (F := Ideal) S_ .f32 0xFF800000#32) reducesTo_S4x12x2048x2048_S4x12x2048_d3 h_S_))))))
          (constant (F := Ideal) S_ .f32 0x00000000#32) reducesTo_S4x12x2048x2048_S4x12x2048_d3 h_S_)))

/-- `-∞` broadcast to [4,12,2048], at an index. -/
theorem host_neginf_at (b : Fin 4) (h : Fin 12) (r : Fin 2048) :
    broadcastInDim S4x12x2048 ![] bcast_S_S4x12x2048 (constant (F := Ideal) S_ .f32 0xFF800000#32) (ix3 b h r)
      = Ideal.ofBits .f32 0xFF800000#32 :=
  (broadcastInDim_apply _ bcast_S_S4x12x2048 _ (ix3 b h r) ix0 (fun a => a.elim0)).trans (constant_apply _ _)

/-- The row maximum the softmax subtracts, at `(b, h, r)`. -/
theorem host_max_at (s : S4x12x2048x2048.Idx → EReal) (b : Fin 4) (h : Fin 12) (r : Fin 2048) :
    (maximumf (F := Ideal) (broadcastInDim S4x12x2048 ![] bcast_S_S4x12x2048 (constant (F := Ideal) S_ .f32 0xFF800000#32))
      (Host.reduce (FloatOps.maximumf (F := Ideal) (φ := .f32)) s (constant (F := Ideal) S_ .f32 0xFF800000#32) reducesTo_S4x12x2048x2048_S4x12x2048_d3 h_S_)) (ix3 b h r)
      = rowMax (fun m => s (ix4 b h r m)) := by
  unfold rowMax
  refine (maximumf_apply _ _ _).trans ?_
  exact congrArg₂ max (host_neginf_at b h r) (host_rowmax s _ b h r)

/-- The host's softmax at `(b, h, r, m)` is the softmax of row `(b, h, r)` at `m`. -/
theorem hostSoftmax_apply (s : S4x12x2048x2048.Idx → EReal) (b : Fin 4) (h : Fin 12) (r m : Fin 2048) :
    hostSoftmax s (ix4 b h r m) = softmaxRow (fun m' => s (ix4 b h r m')) m := by
  unfold hostSoftmax softmaxRow
  have hexp : ∀ m' : Fin 2048,
      (Host.exp (F := Ideal) (subf s (broadcastInDim S4x12x2048x2048 ![0, 1, 2, 3] bcast_S4x12x2048x1_S4x12x2048x2048_0_1_2_3
        (broadcastInDim S4x12x2048x1 ![0, 1, 2] bcast_S4x12x2048_S4x12x2048x1_0_1_2
          (maximumf (broadcastInDim S4x12x2048 ![] bcast_S_S4x12x2048 (constant (F := Ideal) S_ .f32 0xFF800000#32))
            (Host.reduce (FloatOps.maximumf (F := Ideal) (φ := .f32)) s (constant (F := Ideal) S_ .f32 0xFF800000#32) reducesTo_S4x12x2048x2048_S4x12x2048_d3 h_S_)))))) (ix4 b h r m')
        = Ideal.exp (s (ix4 b h r m') - rowMax (fun m'' => s (ix4 b h r m''))) := fun m' =>
    congrArg (fun z => Ideal.exp (s (ix4 b h r m') - z)) ((col_bcast _ b h r m').trans (host_max_at s b h r))
  refine congrArg₂ Ideal.div (hexp m) ?_
  exact (col_bcast _ b h r m).trans ((host_rowsum _ b h r).trans (Finset.sum_congr rfl fun m' _ => hexp m'))

end Cert.RefBridge

end
-- ==== Proof.RefAttnStage.lean ====
/-
  The reference's attention output (its second product) is `Spec.attnArr` of its three projected arrays: the scores are
  the scaled products of query and key rows, the two softmax stages are the host softmax applied to the stage before, and
  the output sums the doubly softmaxed row against a column of the values.
-/
import proofs.«103066_j70763881169162_1_alg».proof.Proof.RefAttn

noncomputable section

open scoped BigOperators

namespace Cert.RefBridge

open Cert.ReferenceIdeal Cert.ReferenceIdeal.Read Cert.ReferenceIdeal.Facts₀ Idealize.ShloMosaic Idealize.ShloMosaic.ValueIdx Cert.Spec

/-- The first softmax stage is the host softmax of the scores. -/
theorem stage_p1 (x0 : (⟨S4x2048x768, .f32⟩ : BufTy).Contents (Elt Ideal)) (x1 : (⟨S2304x768, .f32⟩ : BufTy).Contents (Elt Ideal)) :
    val_main_v22 (F := Ideal) x0 x1 = hostSoftmax (val_main_v11 (F := Ideal) x0 x1) := rfl

/-- The second softmax stage is the host softmax of the first. -/
theorem stage_p2 (x0 : (⟨S4x2048x768, .f32⟩ : BufTy).Contents (Elt Ideal)) (x1 : (⟨S2304x768, .f32⟩ : BufTy).Contents (Elt Ideal)) :
    val_main_v33 (F := Ideal) x0 x1 = hostSoftmax (val_main_v22 (F := Ideal) x0 x1) := rfl

/-- The scaled scores at `(b, h, r, m)`: query row `r` against key row `m`, times 1/8. -/
theorem scores_at (x0 : (⟨S4x2048x768, .f32⟩ : BufTy).Contents (Elt Ideal)) (x1 : (⟨S2304x768, .f32⟩ : BufTy).Contents (Elt Ideal))
    (b : Fin 4) (h : Fin 12) (r m : Fin 2048) :
    val_main_v11 (F := Ideal) x0 x1 (ix4 b h r m)
      = scores (fun d => val_main_v4 (F := Ideal) x0 x1 (ix4 b h r d)) (fun m' d => val_main_v6 (F := Ideal) x0 x1 (ix4 b h m' d)) m := by
  rw [val_main_v11_apply, val_main_v9_apply, val_main_v10_apply, val_main_cst_apply, Ideal.mulf_def, Ideal.ofBits_def]
  unfold scores
  refine congrArg (· * eighth) (Finset.sum_congr rfl fun k _ => ?_)
  have el : lidx_main_v9 (ix4 b h r m) k = ix4 b h r k :=
    funext fun a => by match a with | ⟨0, _⟩ => rfl | ⟨1, _⟩ => rfl | ⟨2, _⟩ => rfl | ⟨3, _⟩ => rfl
  have er : ridx_main_v9 (ix4 b h r m) k = ix4 b h m k :=
    funext fun a => by match a with | ⟨0, _⟩ => rfl | ⟨1, _⟩ => rfl | ⟨2, _⟩ => rfl | ⟨3, _⟩ => rfl
  rw [el, er]

/-- The reference's attention output is the specification's, of its projected queries, keys and values. -/
theorem attn_stage (x0 : (⟨S4x2048x768, .f32⟩ : BufTy).Contents (Elt Ideal)) (x1 : (⟨S2304x768, .f32⟩ : BufTy).Contents (Elt Ideal)) :
    val_main_v34 (F := Ideal) x0 x1
      = attnArr (val_main_v4 (F := Ideal) x0 x1) (val_main_v6 (F := Ideal) x0 x1) (val_main_v8 (F := Ideal) x0 x1) := by
  funext i
  rw [val_main_v34_apply]
  unfold attnArr attnAt attnRow
  refine Finset.sum_congr rfl fun k _ => ?_
  have el : lidx_main_v34 i k = ix4 (⟨(i 0).val, (i 0).isLt⟩ : Fin 4) (⟨(i 1).val, (i 1).isLt⟩ : Fin 12) (⟨(i 2).val, (i 2).isLt⟩ : Fin 2048) k :=
    funext fun a => by match a with | ⟨0, _⟩ => rfl | ⟨1, _⟩ => rfl | ⟨2, _⟩ => rfl | ⟨3, _⟩ => rfl
  have er : ridx_main_v34 i k = ix4 (⟨(i 0).val, (i 0).isLt⟩ : Fin 4) (⟨(i 1).val, (i 1).isLt⟩ : Fin 12) k (⟨(i 3).val, (i 3).isLt⟩ : Fin 64) :=
    funext fun a => by match a with | ⟨0, _⟩ => rfl | ⟨1, _⟩ => rfl | ⟨2, _⟩ => rfl | ⟨3, _⟩ => rfl
  rw [el, er, stage_p2, hostSoftmax_apply]
  refine congrArg (fun f : Fin 2048 → EReal => softmaxRow f k * _) (funext fun m => ?_)
  rw [stage_p1, hostSoftmax_apply]
  exact congrArg (fun f : Fin 2048 → EReal => softmaxRow f m) (funext fun m' => scores_at x0 x1 _ _ _ m')

end Cert.RefBridge

end
-- ==== Proof.RefLinear.lean ====
/-
  The reference's two projections against the specification's matrix products. The reference contracts the last axis of
  a [4, 2048, 768] array with the second axis of a weight matrix `W[o, c]`; the kernel flattens the array to
  [8192, 768] rows and multiplies by the transposed weights. Row `r` of the flattened array is `(r / 2048, r % 2048)`,
  and the transposed weights at `(c, o)` are `W[o, c]`, so the two sums have the same terms.
-/
import proofs.«103066_j70763881169162_1_alg».proof.Proof.Gen.ReferenceIdeal.Read
import proofs.«103066_j70763881169162_1_alg».proof.Proof.Spec

noncomputable section

open scoped BigOperators

namespace Cert.RefBridge

open Cert.ReferenceIdeal Cert.ReferenceIdeal.Read Idealize.ShloMosaic Idealize.ShloMosaic.ValueIdx Cert.Spec

/-- A [4, 2048, C] array flattened to [8192, C] rows, at `(r, c)`. -/
theorem rows_view {α : Type} {C : Nat} (x : (⟨3, ![4, 2048, C]⟩ : Shape).Idx → α)
    (h : (⟨3, ![4, 2048, C]⟩ : Shape).ShapeCasts ⟨2, ![8192, C]⟩) (r : Fin 8192) (c : Fin C) :
    shapeCast ⟨2, ![8192, C]⟩ x h (ix2 r c)
      = x (ix3 (⟨r.val / 2048, by have := r.isLt; omega⟩ : Fin 4) (⟨r.val % 2048, Nat.mod_lt _ (by decide)⟩ : Fin 2048) c) :=
  shapeCast_apply x h (ix2 r c) _ (by
    rw [Shape.rowMajor_val_three, Shape.rowMajor_val_two]
    show (r.val / 2048 * 2048 + r.val % 2048) * C + c.val = r.val * C + c.val
    rw [Nat.div_add_mod'])

/-- A transposed matrix at `(c, o)` is the matrix at `(o, c)`. -/
theorem transposed_at {α : Type} {O C : Nat} (w : (⟨2, ![O, C]⟩ : Shape).Idx → α)
    (h : (⟨2, ![O, C]⟩ : Shape).Transposes [1, 0] ⟨2, ![C, O]⟩) (c : Fin C) (o : Fin O) :
    transpose ⟨2, ![C, O]⟩ [1, 0] w h (ix2 c o) = w (ix2 o c) :=
  transpose_apply [1, 0] w h (ix2 c o) (ix2 o c) (fun b => match b with
    | ⟨0, _⟩ => rfl
    | ⟨1, _⟩ => rfl)

/-- The first projection: the product of the flattened input with the transposed weights is the reference's
    `dot_general`, flattened. -/
theorem proj_in (x0 : (⟨S4x2048x768, .f32⟩ : BufTy).Contents (Elt Ideal)) (x1 : (⟨S2304x768, .f32⟩ : BufTy).Contents (Elt Ideal))
    (hx : (⟨3, ![4, 2048, 768]⟩ : Shape).ShapeCasts ⟨2, ![8192, 768]⟩)
    (ht : (⟨2, ![2304, 768]⟩ : Shape).Transposes [1, 0] ⟨2, ![768, 2304]⟩)
    (hb : FTy.bf16.bits < FTy.f32.bits)
    (hc : (⟨3, ![4, 2048, 2304]⟩ : Shape).ShapeCasts ⟨2, ![8192, 2304]⟩) :
    linArr (M := 8192) (C := 768) (O := 2304) (shapeCast ⟨2, ![8192, 768]⟩ x0 hx)
        (truncf (F := Ideal) .bf16 (transpose ⟨2, ![768, 2304]⟩ [1, 0] x1 ht) hb)
      = shapeCast ⟨2, ![8192, 2304]⟩ (val_main_v0 (F := Ideal) x0 x1) hc := by
  funext i
  obtain ⟨r, o, rfl⟩ : ∃ (r : Fin 8192) (o : Fin 2304), i = ix2 r o := ⟨i 0, i 1, eq_ix2 i⟩
  rw [rows_view (val_main_v0 (F := Ideal) x0 x1) hc r o, val_main_v0_apply]
  unfold linArr linAt
  refine Finset.sum_congr rfl fun k _ => ?_
  have el : lidx_main_v0 (ix3 (⟨r.val / 2048, by have := r.isLt; omega⟩ : Fin 4) (⟨r.val % 2048, Nat.mod_lt _ (by decide)⟩ : Fin 2048) o) k
      = ix3 (⟨r.val / 2048, by have := r.isLt; omega⟩ : Fin 4) (⟨r.val % 2048, Nat.mod_lt _ (by decide)⟩ : Fin 2048) k :=
    funext fun a => by match a with | ⟨0, _⟩ => rfl | ⟨1, _⟩ => rfl | ⟨2, _⟩ => rfl
  have er : ridx_main_v0 (ix3 (⟨r.val / 2048, by have := r.isLt; omega⟩ : Fin 4) (⟨r.val % 2048, Nat.mod_lt _ (by decide)⟩ : Fin 2048) o) k
      = ix2 o k :=
    funext fun a => by match a with | ⟨0, _⟩ => rfl | ⟨1, _⟩ => rfl
  rw [el, er]
  exact congrArg₂ (· * ·) (rows_view x0 hx r k) (transposed_at x1 ht k o)

/-- The second projection with its bias: the product of the flattened attention output with the transposed weights,
    plus the bias row, is the reference's last stage, flattened. -/
theorem proj_out (x0 : (⟨S4x2048x768, .f32⟩ : BufTy).Contents (Elt Ideal)) (x1 : (⟨S2304x768, .f32⟩ : BufTy).Contents (Elt Ideal))
    (x2 : (⟨S768x768, .f32⟩ : BufTy).Contents (Elt Ideal)) (x3 : (⟨S768, .f32⟩ : BufTy).Contents (Elt Ideal))
    (hx : (⟨3, ![4, 2048, 768]⟩ : Shape).ShapeCasts ⟨2, ![8192, 768]⟩)
    (ht : (⟨2, ![768, 768]⟩ : Shape).Transposes [1, 0] ⟨2, ![768, 768]⟩)
    (hb : FTy.bf16.bits < FTy.f32.bits) :
    linBiasArr (M := 8192) (C := 768) (O := 768) (shapeCast ⟨2, ![8192, 768]⟩ (val_main_v36 (F := Ideal) x0 x1) hx)
        (truncf (F := Ideal) .bf16 (transpose ⟨2, ![768, 768]⟩ [1, 0] x2 ht) hb) x3
      = shapeCast ⟨2, ![8192, 768]⟩ (val_main_v40 (F := Ideal) x0 x1 x2 x3) hx := by
  funext i
  obtain ⟨r, o, rfl⟩ : ∃ (r : Fin 8192) (o : Fin 768), i = ix2 r o := ⟨i 0, i 1, eq_ix2 i⟩
  rw [rows_view (val_main_v40 (F := Ideal) x0 x1 x2 x3) hx r o, val_main_v40_apply, val_main_v37_apply, val_main_v39_apply,
    val_main_v38_apply, Ideal.addf_def]
  unfold linBiasArr linAt
  refine congrArg₂ (· + ·) (Finset.sum_congr rfl fun k _ => ?_) ?_
  · have el : lidx_main_v37 (ix3 (⟨r.val / 2048, by have := r.isLt; omega⟩ : Fin 4) (⟨r.val % 2048, Nat.mod_lt _ (by decide)⟩ : Fin 2048) o) k
        = ix3 (⟨r.val / 2048, by have := r.isLt; omega⟩ : Fin 4) (⟨r.val % 2048, Nat.mod_lt _ (by decide)⟩ : Fin 2048) k :=
      funext fun a => by match a with | ⟨0, _⟩ => rfl | ⟨1, _⟩ => rfl | ⟨2, _⟩ => rfl
    have er : ridx_main_v37 (ix3 (⟨r.val / 2048, by have := r.isLt; omega⟩ : Fin 4) (⟨r.val % 2048, Nat.mod_lt _ (by decide)⟩ : Fin 2048) o) k
        = ix2 o k :=
      funext fun a => by match a with | ⟨0, _⟩ => rfl | ⟨1, _⟩ => rfl
    rw [el, er]
    exact congrArg₂ (· * ·) (rows_view (val_main_v36 (F := Ideal) x0 x1) hx r k) (transposed_at x2 ht k o)
  · exact congrArg x3 (funext fun a => by match a with | ⟨0, _⟩ => rfl)

end Cert.RefBridge

end
-- ==== Proof.LibShapeCastTrans.lean ====
/-
  A reshape through an intermediate shape is the direct reshape: all three index sets are matched by row-major
  position, and matching by position composes.
-/
import Idealize.ShloMosaic.Lib.Pipeline.Value

namespace Cert.Lib

open Idealize.ShloMosaic

/-- `shapeCast` to `u` of a `shapeCast` to `t` is the `shapeCast` to `u`: an element of the result sits at the
    source index with the same row-major position, whichever way one goes. -/
theorem shapeCast_trans {s t u : Shape} {α : Type} (v : s.Idx → α) (h : s.ShapeCasts t) (h' : t.ShapeCasts u) :
    shapeCast u (shapeCast t v h) h' = shapeCast u v (h'.trans h) :=
  funext fun i => congrArg v (Shape.reshapeEquiv_reshapeEquiv h h' i)

end Cert.Lib
-- ==== Proof.KerHost.lean ====
/-
  The idealized kernel's buffers at the end of its run, as the reference's stages. Going through the program's seven
  segments: the first region's output is the reference's first projection with its two leading axes flattened; the
  reshape, transpose and slices after it are the reference's own, so the attention region is entered with the
  reference's queries, keys and values and leaves the reference's attention output; transposed back and flattened it
  enters the last region, which leaves the reference's result flattened; the closing reshape restores its shape.
-/
import proofs.«103066_j70763881169162_1_alg».proof.Proof.Gen.KernelIdeal.Frame
import proofs.«103066_j70763881169162_1_alg».proof.Proof.KerRegion0
import proofs.«103066_j70763881169162_1_alg».proof.Proof.KerRegion1
import proofs.«103066_j70763881169162_1_alg».proof.Proof.KerRegion2
import proofs.«103066_j70763881169162_1_alg».proof.Proof.RefAttnStage
import proofs.«103066_j70763881169162_1_alg».proof.Proof.RefLinear
import proofs.«103066_j70763881169162_1_alg».proof.Proof.LibShapeCastTrans
import Idealize.ShloMosaic.Lib.StableHlo.Run

set_option maxRecDepth 16384

noncomputable section

namespace Cert.KerBridge

open Cert.KernelIdeal Cert.KernelIdeal.Gen Cert.ReferenceIdeal.Read
open Idealize.ShloMosaic Idealize.ShloMosaic.TcCoe Idealize.ShloMosaic.ValueIdx Idealize.SL.Sem Idealize.ShloMosaic.StableHlo Cert.Spec

variable (m : (ℓ : Loc nD τ sig) → Buf (Elt Ideal) ℓ) (ρ : Dev nD → PrngReg)

/-! ## Into and out of the first region -/

/-- The first region finds the input flattened to [8192, 768] rows … -/
theorem entry0_x (c : Dev nD) :
    V1 m ρ c main_v0 = shapeCast S8192x768 (m ((c : Thread nD τ).loc main_arg0)) shapeCasts_S4x2048x768_S8192x768 := by
  show StableHlo.after hostOps0 (W0 m ρ c) (Proc.devRef .tc main_v0) = _
  after_results
  all_goals rfl

/-- … and the QKV weights transposed. -/
theorem entry0_w (c : Dev nD) :
    V1 m ρ c main_v2 = truncf (F := Ideal) .bf16 (transpose S768x2304 [1, 0] (m ((c : Thread nD τ).loc main_arg1)) transposes_S2304x768_S768x2304_1_0) bitsLt_bf16_f32 := by
  show StableHlo.after hostOps0 (W0 m ρ c) (Proc.devRef .tc main_v2) = _
  after_results
  all_goals rfl

/-- The first region leaves the reference's first projection, flattened. -/
theorem out0 (c : Dev nD) :
    W2 m ρ c (Proc.devRef .tc main_v3)
      = shapeCast S8192x2304 (val_main_v0 (F := Ideal) (m ((c : Thread nD τ).loc main_arg0)) (m ((c : Thread nD τ).loc main_arg1)))
          (by decide) :=
  (W2_arr m ρ c 2).trans ((final0 (V1 m ρ) c).trans
    ((congrArg₂ (linArr (M := 8192) (C := 768) (O := 2304)) (entry0_x m ρ c) (entry0_w m ρ c)).trans
      (Cert.RefBridge.proj_in _ _ _ _ _ _)))

/-! ## Into and out of the attention region -/

/-- The first region's output, given back its axes, is the reference's reshaped projection. -/
theorem split_eq (c : Dev nD) :
    shapeCast S4x2048x3x12x64 (W2 m ρ c (Proc.devRef .tc main_v3)) shapeCasts_S8192x2304_S4x2048x3x12x64
      = val_main_v1 (F := Ideal) (m ((c : Thread nD τ).loc main_arg0)) (m ((c : Thread nD τ).loc main_arg1)) :=
  (congrArg (fun x : S8192x2304.Idx → EReal => shapeCast S4x2048x3x12x64 x shapeCasts_S8192x2304_S4x2048x3x12x64) (out0 m ρ c)).trans
    (Cert.Lib.shapeCast_trans (val_main_v0 (F := Ideal) (m ((c : Thread nD τ).loc main_arg0)) (m ((c : Thread nD τ).loc main_arg1))) _ _)

theorem entry1_q (c : Dev nD) : V3 m ρ c main_v7 = val_main_v4 (F := Ideal) (m ((c : Thread nD τ).loc main_arg0)) (m ((c : Thread nD τ).loc main_arg1)) := by
  show StableHlo.after hostOps1 (W2 m ρ c) (Proc.devRef .tc main_v7) = _
  after_results
  show shapeCast S4x12x2048x64 (extractStridedSlice S1x4x12x2048x64 ![0, 0, 0, 0, 0] (transpose S3x4x12x2048x64 [2, 0, 3, 1, 4]
      (shapeCast S4x2048x3x12x64 (W2 m ρ c (Proc.devRef .tc main_v3)) shapeCasts_S8192x2304_S4x2048x3x12x64)
      transposes_S4x2048x3x12x64_S3x4x12x2048x64_2_0_3_1_4) slices_S3x4x12x2048x64_S1x4x12x2048x64_0_0_0_0_0)
      shapeCasts_S1x4x12x2048x64_S4x12x2048x64 = _
  rw [split_eq]
  rfl

theorem entry1_k (c : Dev nD) : V3 m ρ c main_v9 = val_main_v6 (F := Ideal) (m ((c : Thread nD τ).loc main_arg0)) (m ((c : Thread nD τ).loc main_arg1)) := by
  show StableHlo.after hostOps1 (W2 m ρ c) (Proc.devRef .tc main_v9) = _
  after_results
  show shapeCast S4x12x2048x64 (extractStridedSlice S1x4x12x2048x64 ![1, 0, 0, 0, 0] (transpose S3x4x12x2048x64 [2, 0, 3, 1, 4]
      (shapeCast S4x2048x3x12x64 (W2 m ρ c (Proc.devRef .tc main_v3)) shapeCasts_S8192x2304_S4x2048x3x12x64)
      transposes_S4x2048x3x12x64_S3x4x12x2048x64_2_0_3_1_4) slices_S3x4x12x2048x64_S1x4x12x2048x64_1_0_0_0_0)
      shapeCasts_S1x4x12x2048x64_S4x12x2048x64 = _
  rw [split_eq]
  rfl

theorem entry1_v (c : Dev nD) : V3 m ρ c main_v11 = val_main_v8 (F := Ideal) (m ((c : Thread nD τ).loc main_arg0)) (m ((c : Thread nD τ).loc main_arg1)) := by
  show StableHlo.after hostOps1 (W2 m ρ c) (Proc.devRef .tc main_v11) = _
  after_results
  show shapeCast S4x12x2048x64 (extractStridedSlice S1x4x12x2048x64 ![2, 0, 0, 0, 0] (transpose S3x4x12x2048x64 [2, 0, 3, 1, 4]
      (shapeCast S4x2048x3x12x64 (W2 m ρ c (Proc.devRef .tc main_v3)) shapeCasts_S8192x2304_S4x2048x3x12x64)
      transposes_S4x2048x3x12x64_S3x4x12x2048x64_2_0_3_1_4) slices_S3x4x12x2048x64_S1x4x12x2048x64_2_0_0_0_0)
      shapeCasts_S1x4x12x2048x64_S4x12x2048x64 = _
  rw [split_eq]
  rfl

/-- The attention region leaves the reference's attention output. -/
theorem out1 (c : Dev nD) :
    W4 m ρ c (Proc.devRef .tc main_v12) = val_main_v34 (F := Ideal) (m ((c : Thread nD τ).loc main_arg0)) (m ((c : Thread nD τ).loc main_arg1)) :=
  (W4_arr m ρ c 3).trans ((final1 (V3 m ρ) c).trans
    ((congr (congr (congrArg attnArr (entry1_q m ρ c)) (entry1_k m ρ c)) (entry1_v m ρ c)).trans (Cert.RefBridge.attn_stage _ _).symm))

/-! ## Into and out of the last region -/

/-- The output weights reach the last region untouched … -/
theorem keep_arg2 (c : Dev nD) : W4 m ρ c (Proc.devRef .tc main_arg2) = m ((c : Thread nD τ).loc main_arg2) := by
  rw [W4_of_ne m ρ c main_arg2 (by decide)]
  show StableHlo.after hostOps1 (W2 m ρ c) (Proc.devRef .tc main_arg2) = _
  after_results
  rw [W2_of_ne m ρ c main_arg2 (by decide)]
  show StableHlo.after hostOps0 (W0 m ρ c) (Proc.devRef .tc main_arg2) = _
  after_results
  all_goals rfl

/-- … and so does the bias. -/
theorem keep_arg3 (c : Dev nD) : V5 m ρ c main_arg3 = m ((c : Thread nD τ).loc main_arg3) := by
  show StableHlo.after hostOps2 (W4 m ρ c) (Proc.devRef .tc main_arg3) = _
  after_results
  rw [W4_of_ne m ρ c main_arg3 (by decide)]
  show StableHlo.after hostOps1 (W2 m ρ c) (Proc.devRef .tc main_arg3) = _
  after_results
  rw [W2_of_ne m ρ c main_arg3 (by decide)]
  show StableHlo.after hostOps0 (W0 m ρ c) (Proc.devRef .tc main_arg3) = _
  after_results
  all_goals rfl

/-- The last region finds the reference's merged attention output, flattened to rows … -/
theorem entry2_x (c : Dev nD) :
    V5 m ρ c main_v14 = shapeCast S8192x768 (val_main_v36 (F := Ideal) (m ((c : Thread nD τ).loc main_arg0)) (m ((c : Thread nD τ).loc main_arg1))) (by decide) := by
  show StableHlo.after hostOps2 (W4 m ρ c) (Proc.devRef .tc main_v14) = _
  after_results
  show shapeCast S8192x768 (transpose S4x2048x12x64 [0, 2, 1, 3] (W4 m ρ c (Proc.devRef .tc main_v12))
      transposes_S4x12x2048x64_S4x2048x12x64_0_2_1_3) shapeCasts_S4x2048x12x64_S8192x768 = _
  rw [out1]
  exact (Cert.Lib.shapeCast_trans (val_main_v35 (F := Ideal) (m ((c : Thread nD τ).loc main_arg0)) (m ((c : Thread nD τ).loc main_arg1))) (by decide) (by decide)).symm

/-- … and the output weights transposed. -/
theorem entry2_w (c : Dev nD) :
    V5 m ρ c main_v16 = truncf (F := Ideal) .bf16 (transpose S768x768 [1, 0] (m ((c : Thread nD τ).loc main_arg2)) transposes_S768x768_S768x768_1_0) bitsLt_bf16_f32 := by
  show StableHlo.after hostOps2 (W4 m ρ c) (Proc.devRef .tc main_v16) = _
  after_results
  show truncf (F := Ideal) .bf16 (transpose S768x768 [1, 0] (W4 m ρ c (Proc.devRef .tc main_arg2)) transposes_S768x768_S768x768_1_0) bitsLt_bf16_f32 = _
  rw [keep_arg2]

/-- The last region leaves the reference's result, flattened. -/
theorem out2 (c : Dev nD) :
    W6 m ρ c (Proc.devRef .tc main_v17)
      = shapeCast S8192x768 (val_main_v40 (F := Ideal) (m ((c : Thread nD τ).loc main_arg0)) (m ((c : Thread nD τ).loc main_arg1)) (m ((c : Thread nD τ).loc main_arg2)) (m ((c : Thread nD τ).loc main_arg3))) (by decide) :=
  (W6_arr m ρ c 3).trans ((final2 (V5 m ρ) c).trans
    ((congr (congr (congrArg (linBiasArr (M := 8192) (C := 768) (O := 768)) (entry2_x m ρ c)) (entry2_w m ρ c)) (keep_arg3 m ρ c)).trans
      (Cert.RefBridge.proj_out _ _ _ _ _ _ _)))

/-! ## The result -/

/-- The program's result buffer ends at the reference's result of the launch arguments. -/
theorem result_eq (c : Dev nD) :
    W7 m ρ c (Proc.devRef .tc main_v18) = val_main_v40 (F := Ideal) (m ((c : Thread nD τ).loc main_arg0)) (m ((c : Thread nD τ).loc main_arg1)) (m ((c : Thread nD τ).loc main_arg2)) (m ((c : Thread nD τ).loc main_arg3)) := by
  show StableHlo.after hostOps3 (W6 m ρ c) (Proc.devRef .tc main_v18) = _
  after_results
  show shapeCast S4x2048x768 (W6 m ρ c (Proc.devRef .tc main_v17)) shapeCasts_S8192x768_S4x2048x768 = _
  rw [out2]
  exact shapeCast_shapeCast _ _ _

end Cert.KerBridge

end
-- ==== Proof.lean ====
/-
  Multi-head self-attention with the softmax applied twice, as three kernels — the QKV projection, the attention of
  each (batch, head) over blocks of 512 query rows against all 2048 keys and values, and the output projection with its
  bias — against the plain reference. Over the extended reals the two programs perform the same operations on the same
  numbers: the scale 64^(-1/2) is the exact binary fraction 1/8 on both sides, every matrix product is a sum over one
  contracted axis taken in one order, a row maximum is a fold of `max` from -∞, and the reshapes, transposes and slices
  between the stages are literally the same. The kernel side differs only in how the work is tiled: rows are flattened
  to 8192 and cut into blocks of 512, and every output element lies in exactly one block. So each kernel region leaves
  one whole-array function of what it found (a matrix product, the attention, a matrix product plus bias), these are
  the reference's stages up to the flattening of two leading axes, and the final reshape undoes the flattening. No
  finiteness is used: nothing is distributed or cancelled.

  The three frames: the two kernel programs' are their generated frames; the reference has no kernel and its frame is
  its run with the result dropped. The kernel's idealization rewrote no operation, so `preserves` has nothing to state.
-/
import proofs.«103066_j70763881169162_1_alg».proof.Defs
import proofs.«103066_j70763881169162_1_alg».proof.Proof.Gen.Kernel
import proofs.«103066_j70763881169162_1_alg».proof.Proof.Gen.Kernel.Skeleton
import proofs.«103066_j70763881169162_1_alg».proof.Proof.Gen.Kernel.Launch
import proofs.«103066_j70763881169162_1_alg».proof.Proof.Gen.Kernel.Points
import proofs.«103066_j70763881169162_1_alg».proof.Proof.Gen.Kernel.Frame
import proofs.«103066_j70763881169162_1_alg».proof.Proof.Gen.KernelIdeal
import proofs.«103066_j70763881169162_1_alg».proof.Proof.Gen.KernelIdeal.Skeleton
import proofs.«103066_j70763881169162_1_alg».proof.Proof.Gen.KernelIdeal.Launch
import proofs.«103066_j70763881169162_1_alg».proof.Proof.Gen.KernelIdeal.Points
import proofs.«103066_j70763881169162_1_alg».proof.Proof.Gen.KernelIdeal.Frame
import proofs.«103066_j70763881169162_1_alg».proof.Proof.Gen.ReferenceIdeal
import proofs.«103066_j70763881169162_1_alg».proof.Proof.Gen.ReferenceIdeal.Run
import proofs.«103066_j70763881169162_1_alg».proof.Proof.Gen.ReferenceIdeal.Read
import proofs.«103066_j70763881169162_1_alg».proof.Proof.Gen.Pre_finite_inputs
import proofs.«103066_j70763881169162_1_alg».proof.Proof.KerRun
import proofs.«103066_j70763881169162_1_alg».proof.Proof.KerHost
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the four arguments both programs run, and both end with the reference's last stage of
    those arguments in their result buffer: the kernel's because its segments compose to it, the reference's because
    that stage is its run's term. -/
theorem algebraic : Cert.algebraic_KernelIdeal_ReferenceIdeal := by
  intro m ρ m' ρ' _ hagree
  refine ⟨fun c => Cert.ReferenceIdeal.Read.val_main_v40 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨?_, ?_, ?_, ?_, ?_⟩)
      (Cert.KernelIdeal.ValueRun.run_contents (F := Ideal) m ρ)
    · exact (h c _ (Cert.KernelIdeal.Gen.mem_uc Cert.KernelIdeal.main_v18 (by decide))).trans (Cert.KerBridge.result_eq m ρ c)
    · exact (h c _ (Cert.KernelIdeal.Gen.mem_uc Cert.KernelIdeal.main_arg0 (by decide))).trans (Cert.KernelIdeal.Gen.W7_main_arg0 m ρ c)
    · exact (h c _ (Cert.KernelIdeal.Gen.mem_uc Cert.KernelIdeal.main_arg1 (by decide))).trans (Cert.KernelIdeal.Gen.W7_main_arg1 m ρ c)
    · exact (h c _ (Cert.KernelIdeal.Gen.mem_uc Cert.KernelIdeal.main_arg2 (by decide))).trans (Cert.KernelIdeal.Gen.W7_main_arg2 m ρ c)
    · exact (h c _ (Cert.KernelIdeal.Gen.mem_uc Cert.KernelIdeal.main_arg3 (by decide))).trans (Cert.KernelIdeal.Gen.W7_main_arg3 m ρ c)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v40_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
